-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S2x6400000 : Shape := ⟨2, ![2, 6400000]⟩
abbrev S6400000x10 : Shape := ⟨2, ![6400000, 10]⟩
abbrev S20x10 : Shape := ⟨2, ![20, 10]⟩
abbrev S10 : Shape := ⟨1, ![10]⟩
abbrev S10x10 : Shape := ⟨2, ![10, 10]⟩
abbrev S20x20 : Shape := ⟨2, ![20, 20]⟩
abbrev S20 : Shape := ⟨1, ![20]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S6400000x10 : S_.BroadcastsInDim S6400000x10 (![] : Fin 0 → Fin S6400000x10.rank)
  reducesTo_S6400000x10_S_d0_1 : S6400000x10.ReducesTo [0, 1] S_
  bcast_S_S20x10 : S_.BroadcastsInDim S20x10 (![] : Fin 0 → Fin S20x10.rank)
  reducesTo_S20x10_S_d0_1 : S20x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S20x20 : S_.BroadcastsInDim S20x20 (![] : Fin 0 → Fin S20x20.rank)
  reducesTo_S20x20_S_d0_1 : S20x20.ReducesTo [0, 1] S_
  bcast_S_S20 : S_.BroadcastsInDim S20 (![] : Fin 0 → Fin S20.rank)
  reducesTo_S20_S_d0 : S20.ReducesTo [0] S_

variable [Facts]

def fn_part2 {F : FTy → Type} [FloatOps F] (main_arg8 : FVec F S20x10 .f32) (main_v33 : IVec S_ 1) : IVec S_ 1 :=
  let main_v34 : FVec F S20x10 .f32 := Host.absf main_arg8
  let main_cst_12 : FVec F S_ .f32 := constant S_ .f32 0x7F800000#32
  let main_v35 : FVec F S20x10 .f32 := broadcastInDim S20x10 ![] bcast_S_S20x10 main_cst_12
  let main_v36 : IVec S20x10 1 := cmpf .olt main_v34 main_v35
  let main_c_13 : IVec S_ 1 := constantI S_ 1 1#1
  let main_v37 : IVec S_ 1 := (fun x v => Host.reduce IntOp.andi x v reducesTo_S20x10_S_d0_1 h_S_) main_v36 main_c_13
  let main_v38 : IVec S_ 1 := andi main_v33 main_v37
  main_v38

def fn_part1 {F : FTy → Type} [FloatOps F] (main_arg5 : FVec F S10x10 .f32) (main_arg6 : FVec F S20x20 .f32) (main_arg7 : FVec F S20 .f32) (main_arg8 : FVec F S20x10 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x10 .f32 := Host.absf main_arg5
  let main_cst_6 : FVec F S_ .f32 := constant S_ .f32 0x7F800000#32
  let main_v20 : FVec F S10x10 .f32 := broadcastInDim S10x10 ![] bcast_S_S10x10 main_cst_6
  let main_v21 : IVec S10x10 1 := cmpf .olt main_v19 main_v20
  let main_c_7 : IVec S_ 1 := constantI S_ 1 1#1
  let main_v22 : IVec S_ 1 := (fun x v => Host.reduce IntOp.andi x v reducesTo_S10x10_S_d0_1 h_S_) main_v21 main_c_7
  let main_v23 : IVec S_ 1 := andi main_v18 main_v22
  let main_v24 : FVec F S20x20 .f32 := Host.absf main_arg6
  let main_cst_8 : FVec F S_ .f32 := constant S_ .f32 0x7F800000#32
  let main_v25 : FVec F S20x20 .f32 := broadcastInDim S20x20 ![] bcast_S_S20x20 main_cst_8
  let main_v26 : IVec S20x20 1 := cmpf .olt main_v24 main_v25
  let main_c_9 : IVec S_ 1 := constantI S_ 1 1#1
  let main_v27 : IVec S_ 1 := (fun x v => Host.reduce IntOp.andi x v reducesTo_S20x20_S_d0_1 h_S_) main_v26 main_c_9
  let main_v28 : IVec S_ 1 := andi main_v23 main_v27
  let main_v29 : FVec F S20 .f32 := Host.absf main_arg7
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  fn_part2 (F := F) main_arg8 main_v33

def fn {F : FTy → Type} [FloatOps F] (main_arg0 : FVec F S100000x10 .f32) (main_arg1 : IVec S2x6400000 32) (main_arg2 : FVec F S6400000x10 .f32) (main_arg3 : FVec F S20x10 .f32) (main_arg4 : FVec F S10 .f32) (main_arg5 : FVec F S10x10 .f32) (main_arg6 : FVec F S20x20 .f32) (main_arg7 : FVec F S20 .f32) (main_arg8 : FVec F S20x10 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S6400000x10 .f32 := Host.absf main_arg2
  let main_cst_0 : FVec F S_ .f32 := constant S_ .f32 0x7F800000#32
  let main_v5 : FVec F S6400000x10 .f32 := broadcastInDim S6400000x10 ![] bcast_S_S6400000x10 main_cst_0
  let main_v6 : IVec S6400000x10 1 := cmpf .olt main_v4 main_v5
  let main_c_1 : IVec S_ 1 := constantI S_ 1 1#1
  let main_v7 : IVec S_ 1 := (fun x v => Host.reduce IntOp.andi x v reducesTo_S6400000x10_S_d0_1 h_S_) main_v6 main_c_1
  let main_v8 : IVec S_ 1 := andi main_v3 main_v7
  let main_v9 : FVec F S20x10 .f32 := Host.absf main_arg3
  let main_cst_2 : FVec F S_ .f32 := constant S_ .f32 0x7F800000#32
  let main_v10 : FVec F S20x10 .f32 := broadcastInDim S20x10 ![] bcast_S_S20x10 main_cst_2
  let main_v11 : IVec S20x10 1 := cmpf .olt main_v9 main_v10
  let main_c_3 : IVec S_ 1 := constantI S_ 1 1#1
  let main_v12 : IVec S_ 1 := (fun x v => Host.reduce IntOp.andi x v reducesTo_S20x10_S_d0_1 h_S_) main_v11 main_c_3
  let main_v13 : IVec S_ 1 := andi main_v8 main_v12
  let main_v14 : FVec F S10 .f32 := Host.absf main_arg4
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg5 main_arg6 main_arg7 main_arg8 main_v13 main_v16
-- ==== Kernel.lean ====
abbrev S100000x10 : Shape := ⟨2, ![100000, 10]⟩
abbrev S2x6400000 : Shape := ⟨2, ![2, 6400000]⟩
abbrev S6400000x10 : Shape := ⟨2, ![6400000, 10]⟩
abbrev S20x10 : Shape := ⟨2, ![20, 10]⟩
abbrev S10 : Shape := ⟨1, ![10]⟩
abbrev S10x10 : Shape := ⟨2, ![10, 10]⟩
abbrev S20x20 : Shape := ⟨2, ![20, 20]⟩
abbrev S20 : Shape := ⟨1, ![20]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S4000x10 : Shape := ⟨2, ![4000, 10]⟩
abbrev S1x10 : Shape := ⟨2, ![1, 10]⟩
abbrev S100000 : Shape := ⟨1, ![100000]⟩
abbrev S100000x1 : Shape := ⟨2, ![100000, 1]⟩
abbrev S10x20 : Shape := ⟨2, ![10, 20]⟩
abbrev S5000x10 : Shape := ⟨2, ![5000, 10]⟩
abbrev S5000x20 : Shape := ⟨2, ![5000, 20]⟩
abbrev S1x20 : Shape := ⟨2, ![1, 20]⟩

abbrev nBuf : Space → Nat
  | .hbm => 53
  | .vmem => 20
  | .smem => 0
  | _ => 0

abbrev bufTy : (tb : Table) → Fin (tcTables nBuf tb) → BufTy
  | .hbm, ⟨0, _⟩ => ⟨S100000x10, .f32⟩
  | .hbm, ⟨1, _⟩ => ⟨S2x6400000, .i32⟩
  | .hbm, ⟨2, _⟩ => ⟨S6400000x10, .f32⟩
  | .hbm, ⟨3, _⟩ => ⟨S20x10, .f32⟩
  | .hbm, ⟨4, _⟩ => ⟨S10, .f32⟩
  | .hbm, ⟨5, _⟩ => ⟨S10x10, .f32⟩
  | .hbm, ⟨6, _⟩ => ⟨S20x20, .f32⟩
  | .hbm, ⟨7, _⟩ => ⟨S20, .f32⟩
  | .hbm, ⟨8, _⟩ => ⟨S20x10, .f32⟩
  | .hbm, ⟨9, _⟩ => ⟨S1x6400000, .i32⟩
  | .hbm, ⟨10, _⟩ => ⟨S6400000, .i32⟩
  | .hbm, ⟨11, _⟩ => ⟨S1x6400000, .i32⟩
  | .hbm, ⟨12, _⟩ => ⟨S6400000, .i32⟩
  | .hbm, ⟨13, _⟩ => ⟨S_, .i32⟩
  | .hbm, ⟨14, _⟩ => ⟨S6400000, .i32⟩
  | .hbm, ⟨15, _⟩ => ⟨S6400000, .i1⟩
  | .hbm, ⟨16, _⟩ => ⟨S_, .i32⟩
  | .hbm, ⟨17, _⟩ => ⟨S6400000, .i32⟩
  | .hbm, ⟨18, _⟩ => ⟨S6400000, .i32⟩
  | .hbm, ⟨19, _⟩ => ⟨S6400000, .i32⟩
  | .hbm, ⟨20, _⟩ => ⟨S6400000x1, .i32⟩
  | .hbm, ⟨21, _⟩ => ⟨S6400000x10, .f32⟩
  | .hbm, ⟨22, _⟩ => ⟨S10x10, .f32⟩
  | .hbm, ⟨23, _⟩ => ⟨S10x10, .f32⟩
  | .hbm, ⟨24, _⟩ => ⟨S6400000x10, .f32⟩
  | .hbm, ⟨25, _⟩ => ⟨S_, .f32⟩
  | .hbm, ⟨26, _⟩ => ⟨S100000x10, .f32⟩
  | .hbm, ⟨27, _⟩ => ⟨S6400000x1, .i32⟩
  | .hbm, ⟨28, _⟩ => ⟨S100000x10, .f32⟩
  | .hbm, ⟨29, _⟩ => ⟨S_, .f32⟩
  | .hbm, ⟨30, _⟩ => ⟨S6400000, .f32⟩
  | .hbm, ⟨31, _⟩ => ⟨S_, .f32⟩
  | .hbm, ⟨32, _⟩ => ⟨S100000, .f32⟩
  | .hbm, ⟨33, _⟩ => ⟨S6400000x1, .i32⟩
  | .hbm, ⟨34, _⟩ => ⟨S100000, .f32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .i1⟩
  | .hbm, ⟨39, _⟩ => ⟨S100000x1, .f32⟩
  | .hbm, ⟨40, _⟩ => ⟨S_, .f32⟩
  | .hbm, ⟨41, _⟩ => ⟨S100000x1, .f32⟩
  | .hbm, ⟨42, _⟩ => ⟨S100000x1, .f32⟩
  | .hbm, ⟨43, _⟩ => ⟨S100000x10, .f32⟩
  | .hbm, ⟨44, _⟩ => ⟨S100000x10, .f32⟩
  | .hbm, ⟨45, _⟩ => ⟨S_, .f32⟩
  | .hbm, ⟨46, _⟩ => ⟨S_, .f32⟩
  | .hbm, ⟨47, _⟩ => ⟨S100000x10, .i1⟩
  | .hbm, ⟨48, _⟩ => ⟨S100000x10, .f32⟩
  | .hbm, ⟨49, _⟩ => ⟨S100000x10, .f32⟩
  | .hbm, ⟨50, _⟩ => ⟨S10x20, .f32⟩
  | .hbm, ⟨51, _⟩ => ⟨S10x20, .f32⟩
  | .hbm, ⟨52, _⟩ => ⟨S100000x10, .f32⟩
  | .local _ .vmem, ⟨0, _⟩ => ⟨S4000x10, .f32⟩
  | .local _ .vmem, ⟨1, _⟩ => ⟨S4000x10, .f32⟩
  | .local _ .vmem, ⟨2, _⟩ => ⟨S4000x10, .f32⟩
  | .local _ .vmem, ⟨3, _⟩ => ⟨S4000x10, .f32⟩
  | .local _ .vmem, ⟨4, _⟩ => ⟨S10x10, .f32⟩
  | .local _ .vmem, ⟨5, _⟩ => ⟨S10x10, .f32⟩
  | .local _ .vmem, ⟨6, _⟩ => ⟨S10, .f32⟩
  | .local _ .vmem, ⟨7, _⟩ => ⟨S10x10, .f32⟩
  | .local _ .vmem, ⟨8, _⟩ => ⟨S4000x10, .f32⟩
  | .local _ .vmem, ⟨9, _⟩ => ⟨S4000x10, .f32⟩
  | .local _ .vmem, ⟨10, _⟩ => ⟨S5000x10, .f32⟩
  | .local _ .vmem, ⟨11, _⟩ => ⟨S5000x10, .f32⟩
  | .local _ .vmem, ⟨12, _⟩ => ⟨S5000x10, .f32⟩
  | .local _ .vmem, ⟨13, _⟩ => ⟨S5000x10, .f32⟩
  | .local _ .vmem, ⟨14, _⟩ => ⟨S10x20, .f32⟩
  | .local _ .vmem, ⟨15, _⟩ => ⟨S10x20, .f32⟩
  | .local _ .vmem, ⟨16, _⟩ => ⟨S20, .f32⟩
  | .local _ .vmem, ⟨17, _⟩ => ⟨S20x10, .f32⟩
  | .local _ .vmem, ⟨18, _⟩ => ⟨S5000x10, .f32⟩
  | .local _ .vmem, ⟨19, _⟩ => ⟨S5000x10, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![1600], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x10 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10x20 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10x20 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S20 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S20x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x10 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S20x10_S10x10_0_0 : S20x10.Slices ![0, 0] S10x10
  slices_S20x10_S10x10_10_0 : S20x10.Slices ![10, 0] S10x10
  inb_S4000x10_S4000x10_0_0 : ∀ a, (![0, 0] : Fin 2 → Nat) a + S4000x10.size a ≤ S4000x10.size a
  h_S4000x10 : 0 < S4000x10.numel
  bitsLt_bf16_f32 : FTy.bits .bf16 < FTy.bits .f32
  shapeCasts_S4000x10_S4000x10 : S4000x10.ShapeCasts S4000x10
  inb_S10x10_S10x10_0_0 : ∀ a, (![0, 0] : Fin 2 → Nat) a + S10x10.size a ≤ S10x10.size a
  h_S10x10 : 0 < S10x10.numel
  shapeCasts_S10x10_S10x10 : S10x10.ShapeCasts S10x10
  inb_S10_S10_0 : ∀ a, (![0] : Fin 1 → Nat) a + S10.size a ≤ S10.size a
  h_S10 : 0 < S10.numel
  shapeCasts_S10_S1x10 : S10.ShapeCasts S1x10
  shapeCasts_S1x10_S1x10 : S1x10.ShapeCasts S1x10
  broadcasts_S1x10_S4000x10 : S1x10.Broadcasts S4000x10
  bcast_S_S100000x10 : S_.BroadcastsInDim S100000x10 (![] : Fin 0 → Fin S100000x10.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x10_0_1 : S100000x1.BroadcastsInDim S100000x10 (![0, 1] : Fin 2 → Fin S100000x10.rank)
  slices_S20x20_S10x20_0_0 : S20x20.Slices ![0, 0] S10x20
  slices_S20x20_S10x20_10_0 : S20x20.Slices ![10, 0] S10x20
  inb_S5000x10_S5000x10_0_0 : ∀ a, (![0, 0] : Fin 2 → Nat) a + S5000x10.size a ≤ S5000x10.size a
  h_S5000x10 : 0 < S5000x10.numel
  shapeCasts_S5000x10_S5000x10 : S5000x10.ShapeCasts S5000x10
  inb_S10x20_S10x20_0_0 : ∀ a, (![0, 0] : Fin 2 → Nat) a + S10x20.size a ≤ S10x20.size a
  h_S10x20 : 0 < S10x20.numel
  shapeCasts_S10x20_S10x20 : S10x20.ShapeCasts S10x20
  inb_S20_S20_0 : ∀ a, (![0] : Fin 1 → Nat) a + S20.size a ≤ S20.size a
  h_S20 : 0 < S20.numel
  shapeCasts_S20_S1x20 : S20.ShapeCasts S1x20
  shapeCasts_S1x20_S1x20 : S1x20.ShapeCasts S1x20
  broadcasts_S1x20_S5000x20 : S1x20.Broadcasts S5000x20
  inb_S20x10_S20x10_0_0 : ∀ a, (![0, 0] : Fin 2 → Nat) a + S20x10.size a ≤ S20x10.size a
  h_S20x10 : 0 < S20x10.numel
  gather_S100000x10_S6400000x1_S6400000x10_1_0_n_n_0_1_110_wf : GatherDims.WF S100000x10 S6400000x1 S6400000x10 [1] [0] [] [0] [] 1 ![1, 10]
  dot_S4000x10_S10x10_S4000x10_1_0_0_1_n_n_wf : DotDims.WF S4000x10 S10x10 S4000x10 [1] [0] [0] [1] [] []
  scatter_S100000x10_S6400000x1_S6400000x10_1_0_0_1_wf : ScatterDims.WF S100000x10 S6400000x1 S6400000x10 [1] [0] [0] 1
  scatter_S100000_S6400000x1_S6400000_n_0_0_1_wf : ScatterDims.WF S100000 S6400000x1 S6400000 [] [0] [0] 1
  dot_S5000x10_S10x20_S5000x20_1_0_0_1_n_n_wf : DotDims.WF S5000x10 S10x20 S5000x20 [1] [0] [0] [1] [] []
  dot_S5000x20_S20x10_S5000x10_1_0_0_1_n_n_wf : DotDims.WF S5000x20 S20x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x10.size a ≤ S6400000x10.size a
  hwx0_0 : ∀ i : grid0.Coords, EltTy.bits .f32 = 32 ∨ (Rect.block (s := S6400000x10) S4000x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x10.size a ≤ S6400000x10.size a
  hwx0_1 : ∀ i : grid0.Coords, EltTy.bits .f32 = 32 ∨ (Rect.block (s := S6400000x10) S4000x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x10.size a ≤ S10x10.size a
  hwx0_2 : ∀ i : grid0.Coords, EltTy.bits .f32 = 32 ∨ (Rect.block (s := S10x10) S10x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x10.size a ≤ S10x10.size a
  hwx0_3 : ∀ i : grid0.Coords, EltTy.bits .f32 = 32 ∨ (Rect.block (s := S10x10) S10x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10.size a ≤ S10.size a
  hwx0_4 : ∀ i : grid0.Coords, EltTy.bits .f32 = 32 ∨ (Rect.block (s := S10) S10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x10.size a ≤ S10x10.size a
  hwx0_5 : ∀ i : grid0.Coords, EltTy.bits .f32 = 32 ∨ (Rect.block (s := S10x10) S10x10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x10.size a ≤ S6400000x10.size a
  hwx0_6 : ∀ i : grid0.Coords, EltTy.bits .f32 = 32 ∨ (Rect.block (s := S6400000x10) S4000x10.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x10.size a ≤ S100000x10.size a
  hwx1_0 : ∀ i : grid1.Coords, EltTy.bits .f32 = 32 ∨ (Rect.block (s := S100000x10) S5000x10.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x10.size a ≤ S100000x10.size a
  hwx1_1 : ∀ i : grid1.Coords, EltTy.bits .f32 = 32 ∨ (Rect.block (s := S100000x10) S5000x10.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10x20.size a ≤ S10x20.size a
  hwx1_2 : ∀ i : grid1.Coords, EltTy.bits .f32 = 32 ∨ (Rect.block (s := S10x20) S10x20.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10x20.size a ≤ S10x20.size a
  hwx1_3 : ∀ i : grid1.Coords, EltTy.bits .f32 = 32 ∨ (Rect.block (s := S10x20) S10x20.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S20.size a ≤ S20.size a
  hwx1_4 : ∀ i : grid1.Coords, EltTy.bits .f32 = 32 ∨ (Rect.block (s := S20) S20.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S20x10.size a ≤ S20x10.size a
  hwx1_5 : ∀ i : grid1.Coords, EltTy.bits .f32 = 32 ∨ (Rect.block (s := S20x10) S20x10.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x10.size a ≤ S100000x10.size a
  hwx1_6 : ∀ i : grid1.Coords, EltTy.bits .f32 = 32 ∨ (Rect.block (s := S100000x10) S5000x10.size (cc1_transform_6 i) (hinb1_6 i)).WholeWords (EltTy.packing .f32)

variable [Facts₀]

def gather_S100000x10_S6400000x1_S6400000x10_1_0_n_n_0_1_110 : GatherDims S100000x10 S6400000x1 S6400000x10 where
  offsetDims := [1]
  collapsedSliceDims := [0]
  operandBatchingDims := []
  startIndicesBatchingDims := []
  startIndexMap := [0]
  indexVectorDim := 1
  sliceSizes := ![1, 10]
  wf := gather_S100000x10_S6400000x1_S6400000x10_1_0_n_n_0_1_110_wf
def dot_S4000x10_S10x10_S4000x10_1_0_0_1_n_n : DotDims S4000x10 S10x10 S4000x10 where
  lhsContracting := [1]
  rhsContracting := [0]
  lhsNonContracting := [0]
  rhsNonContracting := [1]
  lhsBatch := []
  rhsBatch := []
  wf := dot_S4000x10_S10x10_S4000x10_1_0_0_1_n_n_wf
def scatter_S100000x10_S6400000x1_S6400000x10_1_0_0_1 : ScatterDims S100000x10 S6400000x1 S6400000x10 where
  updateWindowDims := [1]
  insertedWindowDims := [0]
  scatterDimsToOperandDims := [0]
  indexVectorDim := 1
  wf := scatter_S100000x10_S6400000x1_S6400000x10_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def dot_S5000x10_S10x20_S5000x20_1_0_0_1_n_n : DotDims S5000x10 S10x20 S5000x20 where
  lhsContracting := [1]
  rhsContracting := [0]
  lhsNonContracting := [0]
  rhsNonContracting := [1]
  lhsBatch := []
  rhsBatch := []
  wf := dot_S5000x10_S10x20_S5000x20_1_0_0_1_n_n_wf
def dot_S5000x20_S20x10_S5000x10_1_0_0_1_n_n : DotDims S5000x20 S20x10 S5000x10 where
  lhsContracting := [1]
  rhsContracting := [0]
  lhsNonContracting := [0]
  rhsNonContracting := [1]
  lhsBatch := []
  rhsBatch := []
  wf := dot_S5000x20_S20x10_S5000x10_1_0_0_1_n_n_wf

abbrev win0_0 : Pipeline.Window sig grid0 :=
  Pipeline.Window.ofSpec (Memref.whole main_arg2) S4000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4000x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S10x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S10x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S4000x10.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x10.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S10x20.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S10x20.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S20.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S20x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x10.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x10 : Shape := ⟨2, ![100000, 10]⟩
abbrev S2x6400000 : Shape := ⟨2, ![2, 6400000]⟩
abbrev S6400000x10 : Shape := ⟨2, ![6400000, 10]⟩
abbrev S20x10 : Shape := ⟨2, ![20, 10]⟩
abbrev S10 : Shape := ⟨1, ![10]⟩
abbrev S10x10 : Shape := ⟨2, ![10, 10]⟩
abbrev S20x20 : Shape := ⟨2, ![20, 20]⟩
abbrev S20 : Shape := ⟨1, ![20]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x20 : Shape := ⟨2, ![6400000, 20]⟩
abbrev S1x10 : Shape := ⟨2, ![1, 10]⟩
abbrev S100000 : Shape := ⟨1, ![100000]⟩
abbrev S100000x1 : Shape := ⟨2, ![100000, 1]⟩
abbrev S100000x20 : Shape := ⟨2, ![100000, 20]⟩
abbrev S1x20 : Shape := ⟨2, ![1, 20]⟩

abbrev nBuf : Space → Nat
  | .hbm => 65
  | .vmem => 0
  | .smem => 0
  | _ => 0

abbrev bufTy : (tb : Table) → Fin (tcTables nBuf tb) → BufTy
  | .hbm, ⟨0, _⟩ => ⟨S100000x10, .f32⟩
  | .hbm, ⟨1, _⟩ => ⟨S2x6400000, .i32⟩
  | .hbm, ⟨2, _⟩ => ⟨S6400000x10, .f32⟩
  | .hbm, ⟨3, _⟩ => ⟨S20x10, .f32⟩
  | .hbm, ⟨4, _⟩ => ⟨S10, .f32⟩
  | .hbm, ⟨5, _⟩ => ⟨S10x10, .f32⟩
  | .hbm, ⟨6, _⟩ => ⟨S20x20, .f32⟩
  | .hbm, ⟨7, _⟩ => ⟨S20, .f32⟩
  | .hbm, ⟨8, _⟩ => ⟨S20x10, .f32⟩
  | .hbm, ⟨9, _⟩ => ⟨S1x6400000, .i32⟩
  | .hbm, ⟨10, _⟩ => ⟨S6400000, .i32⟩
  | .hbm, ⟨11, _⟩ => ⟨S1x6400000, .i32⟩
  | .hbm, ⟨12, _⟩ => ⟨S6400000, .i32⟩
  | .hbm, ⟨13, _⟩ => ⟨S_, .i32⟩
  | .hbm, ⟨14, _⟩ => ⟨S6400000, .i32⟩
  | .hbm, ⟨15, _⟩ => ⟨S6400000, .i1⟩
  | .hbm, ⟨16, _⟩ => ⟨S_, .i32⟩
  | .hbm, ⟨17, _⟩ => ⟨S6400000, .i32⟩
  | .hbm, ⟨18, _⟩ => ⟨S6400000, .i32⟩
  | .hbm, ⟨19, _⟩ => ⟨S6400000, .i32⟩
  | .hbm, ⟨20, _⟩ => ⟨S6400000x1, .i32⟩
  | .hbm, ⟨21, _⟩ => ⟨S6400000x10, .f32⟩
  | .hbm, ⟨22, _⟩ => ⟨S6400000x20, .f32⟩
  | .hbm, ⟨23, _⟩ => ⟨S6400000x10, .f32⟩
  | .hbm, ⟨24, _⟩ => ⟨S1x10, .f32⟩
  | .hbm, ⟨25, _⟩ => ⟨S6400000x10, .f32⟩
  | .hbm, ⟨26, _⟩ => ⟨S6400000x10, .f32⟩
  | .hbm, ⟨27, _⟩ => ⟨S_, .f32⟩
  | .hbm, ⟨28, _⟩ => ⟨S6400000x10, .f32⟩
  | .hbm, ⟨29, _⟩ => ⟨S6400000x10, .f32⟩
  | .hbm, ⟨30, _⟩ => ⟨S6400000x10, .f32⟩
  | .hbm, ⟨31, _⟩ => ⟨S_, .f32⟩
  | .hbm, ⟨32, _⟩ => ⟨S100000x10, .f32⟩
  | .hbm, ⟨33, _⟩ => ⟨S6400000x1, .i32⟩
  | .hbm, ⟨34, _⟩ => ⟨S100000x10, .f32⟩
  | .hbm, ⟨35, _⟩ => ⟨S_, .f32⟩
  | .hbm, ⟨36, _⟩ => ⟨S6400000, .f32⟩
  | .hbm, ⟨37, _⟩ => ⟨S_, .f32⟩
  | .hbm, ⟨38, _⟩ => ⟨S100000, .f32⟩
  | .hbm, ⟨39, _⟩ => ⟨S6400000x1, .i32⟩
  | .hbm, ⟨40, _⟩ => ⟨S100000, .f32⟩
  | .hbm, ⟨41, _⟩ => ⟨S100000x1, .f32⟩
  | .hbm, ⟨42, _⟩ => ⟨S_, .f32⟩
  | .hbm, ⟨43, _⟩ => ⟨S100000x1, .f32⟩
  | .hbm, ⟨44, _⟩ => ⟨S100000x1, .i1⟩
  | .hbm, ⟨45, _⟩ => ⟨S100000x1, .f32⟩
  | .hbm, ⟨46, _⟩ => ⟨S_, .f32⟩
  | .hbm, ⟨47, _⟩ => ⟨S100000x1, .f32⟩
  | .hbm, ⟨48, _⟩ => ⟨S100000x1, .f32⟩
  | .hbm, ⟨49, _⟩ => ⟨S100000x10, .f32⟩
  | .hbm, ⟨50, _⟩ => ⟨S100000x10, .f32⟩
  | .hbm, ⟨51, _⟩ => ⟨S_, .f32⟩
  | .hbm, ⟨52, _⟩ => ⟨S_, .f32⟩
  | .hbm, ⟨53, _⟩ => ⟨S100000x10, .i1⟩
  | .hbm, ⟨54, _⟩ => ⟨S100000x10, .f32⟩
  | .hbm, ⟨55, _⟩ => ⟨S100000x10, .f32⟩
  | .hbm, ⟨56, _⟩ => ⟨S100000x20, .f32⟩
  | .hbm, ⟨57, _⟩ => ⟨S100000x20, .f32⟩
  | .hbm, ⟨58, _⟩ => ⟨S1x20, .f32⟩
  | .hbm, ⟨59, _⟩ => ⟨S100000x20, .f32⟩
  | .hbm, ⟨60, _⟩ => ⟨S100000x20, .f32⟩
  | .hbm, ⟨61, _⟩ => ⟨S_, .f32⟩
  | .hbm, ⟨62, _⟩ => ⟨S100000x20, .f32⟩
  | .hbm, ⟨63, _⟩ => ⟨S100000x20, .f32⟩
  | .hbm, ⟨64, _⟩ => ⟨S100000x10, .f32⟩
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call2_cst : Ref sig .tc := ⟨.hbm, 61, rfl⟩
abbrev main_call2_v0 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  concatenates_S6400000x10_S6400000x10_S6400000x20_d1 : Shape.Concatenates [S6400000x10, S6400000x10] S6400000x20 1
  bcast_S10_S1x10_1 : S10.BroadcastsInDim S1x10 (![1] : Fin 1 → Fin S1x10.rank)
  bcast_S1x10_S6400000x10_0_1 : S1x10.BroadcastsInDim S6400000x10 (![0, 1] : Fin 2 → Fin S6400000x10.rank)
  bcast_S_S6400000x10 : S_.BroadcastsInDim S6400000x10 (![] : Fin 0 → Fin S6400000x10.rank)
  bcast_S_S100000x10 : S_.BroadcastsInDim S100000x10 (![] : Fin 0 → Fin S100000x10.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x10_0_1 : S100000x1.BroadcastsInDim S100000x10 (![0, 1] : Fin 2 → Fin S100000x10.rank)
  concatenates_S100000x10_S100000x10_S100000x20_d1 : Shape.Concatenates [S100000x10, S100000x10] S100000x20 1
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  bcast_S_S100000x20 : S_.BroadcastsInDim S100000x20 (![] : Fin 0 → Fin S100000x20.rank)
  gather_S100000x10_S6400000x1_S6400000x10_1_0_n_n_0_1_110_wf : GatherDims.WF S100000x10 S6400000x1 S6400000x10 [1] [0] [] [0] [] 1 ![1, 10]
  dot_S6400000x20_S20x10_S6400000x10_1_0_0_1_n_n_wf : DotDims.WF S6400000x20 S20x10 S6400000x10 [1] [0] [0] [1] [] []
  dot_S6400000x10_S10x10_S6400000x10_1_0_0_1_n_n_wf : DotDims.WF S6400000x10 S10x10 S6400000x10 [1] [0] [0] [1] [] []
  scatter_S100000x10_S6400000x1_S6400000x10_1_0_0_1_wf : ScatterDims.WF S100000x10 S6400000x1 S6400000x10 [1] [0] [0] 1
  scatter_S100000_S6400000x1_S6400000_n_0_0_1_wf : ScatterDims.WF S100000 S6400000x1 S6400000 [] [0] [0] 1
  dot_S100000x20_S20x20_S100000x20_1_0_0_1_n_n_wf : DotDims.WF S100000x20 S20x20 S100000x20 [1] [0] [0] [1] [] []
  dot_S100000x20_S20x10_S100000x10_1_0_0_1_n_n_wf : DotDims.WF S100000x20 S20x10 S100000x10 [1] [0] [0] [1] [] []

variable [Facts₀]

def gather_S100000x10_S6400000x1_S6400000x10_1_0_n_n_0_1_110 : GatherDims S100000x10 S6400000x1 S6400000x10 where
  offsetDims := [1]
  collapsedSliceDims := [0]
  operandBatchingDims := []
  startIndicesBatchingDims := []
  startIndexMap := [0]
  indexVectorDim := 1
  sliceSizes := ![1, 10]
  wf := gather_S100000x10_S6400000x1_S6400000x10_1_0_n_n_0_1_110_wf
def dot_S6400000x20_S20x10_S6400000x10_1_0_0_1_n_n : DotDims S6400000x20 S20x10 S6400000x10 where
  lhsContracting := [1]
  rhsContracting := [0]
  lhsNonContracting := [0]
  rhsNonContracting := [1]
  lhsBatch := []
  rhsBatch := []
  wf := dot_S6400000x20_S20x10_S6400000x10_1_0_0_1_n_n_wf
def dot_S6400000x10_S10x10_S6400000x10_1_0_0_1_n_n : DotDims S6400000x10 S10x10 S6400000x10 where
  lhsContracting := [1]
  rhsContracting := [0]
  lhsNonContracting := [0]
  rhsNonContracting := [1]
  lhsBatch := []
  rhsBatch := []
  wf := dot_S6400000x10_S10x10_S6400000x10_1_0_0_1_n_n_wf
def scatter_S100000x10_S6400000x1_S6400000x10_1_0_0_1 : ScatterDims S100000x10 S6400000x1 S6400000x10 where
  updateWindowDims := [1]
  insertedWindowDims := [0]
  scatterDimsToOperandDims := [0]
  indexVectorDim := 1
  wf := scatter_S100000x10_S6400000x1_S6400000x10_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def dot_S100000x20_S20x20_S100000x20_1_0_0_1_n_n : DotDims S100000x20 S20x20 S100000x20 where
  lhsContracting := [1]
  rhsContracting := [0]
  lhsNonContracting := [0]
  rhsNonContracting := [1]
  lhsBatch := []
  rhsBatch := []
  wf := dot_S100000x20_S20x20_S100000x20_1_0_0_1_n_n_wf
def dot_S100000x20_S20x10_S100000x10_1_0_0_1_n_n : DotDims S100000x20 S20x10 S100000x10 where
  lhsContracting := [1]
  rhsContracting := [0]
  lhsNonContracting := [0]
  rhsNonContracting := [1]
  lhsBatch := []
  rhsBatch := []
  wf := dot_S100000x20_S20x10_S100000x10_1_0_0_1_n_n_wf

class Facts : Prop extends Facts₀ where

variable [Facts]
-- ==== Proof.KernelRun.lean ====
/-
  The kernel program's run with its result named.

  @main is six segments: the host operations that cut the edge list into its two index rows, gather the neighbours'
  features and slice the first weight matrix; the per-edge layer (a kernel region); the host operations that sum the
  messages per node, count them and divide (the mean, 0 where a node receives none); the selection's outlined
  function; the slices of the second weight matrix; the per-node layer (a kernel region). Every weakly fair execution
  terminates without a fault, and at the end every buffer of the program that outlives the regions holds the fold of
  those segments over the launch memory at that buffer: in particular the result buffer holds the fold's value
  there, and each argument buffer holds what it held at launch (no segment writes an argument).
-/
import proofs.«115159_j74741020885174_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the segments' fold over the launch memory, the arguments as launched. -/
theorem run : θ_run defs (onTc (τ := τ) (main (F := F))) ⟨m, fun _ => 0, ρ⟩ (fun r => ∀ c : Dev nD,
      r.2.mem ((c.tc : Thread nD τ).loc main_v32) = W6 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v32 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Result

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«115159_j74741020885174_1_alg».proof.Proof.LibContract
import proofs.«115159_j74741020885174_1_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.LibVecRows.lean ====
/-
  A vector laid along every row of a block, in a vector program's spelling.

  A vector program sends a vector v : [N] to an [n, N] block in two steps: a shape cast that adds a leading unit
  axis, [N] → [1, N], then a broadcast that copies that one row down the n rows. The shape cast keeps the row-major
  position, so (0, j) reads v j; the broadcast reads row 0 whatever the row asked for. Entry (r, j) of the result is
  therefore v j, for any extents.
-/
import Idealize.ShloMosaic.Lib.ValueIdx
import Idealize.ShloMosaic.Lib.Pipeline.Value

noncomputable section

namespace Idealize.ShloMosaic.VecRows

open Idealize.ShloMosaic Idealize.ShloMosaic.ValueIdx

variable {α : Type}

/-- A vector viewed as a one-row matrix: entry (0, j) is the vector's entry j. -/
theorem castRow_apply {N : Nat} (h : (⟨1, ![N]⟩ : Shape).ShapeCasts ⟨2, ![1, N]⟩)
    (v : (⟨1, ![N]⟩ : Shape).Idx → α) (j : Fin N) :
    shapeCast (⟨2, ![1, N]⟩ : Shape) v h (ix2 (0 : Fin 1) j) = v (ix1 j) := by
  refine shapeCast_apply v h (ix2 (0 : Fin 1) j) (ix1 j) ?_
  rw [Shape.rowMajor_val_two, Shape.rowMajor_val_one]
  show j.val = 0 * N + j.val
  omega

/-- A one-row matrix copied down n rows: entry (r, j) is the row's entry j. -/
theorem spreadRow_apply {n N : Nat} (h : (⟨2, ![1, N]⟩ : Shape).Broadcasts ⟨2, ![n, N]⟩)
    (w : (⟨2, ![1, N]⟩ : Shape).Idx → α) (r : Fin n) (j : Fin N) :
    broadcastTo (⟨2, ![n, N]⟩ : Shape) w h (ix2 r j) = w (ix2 (0 : Fin 1) j) := by
  refine broadcastTo_apply w h (ix2 r j) (ix2 (0 : Fin 1) j) (fun a => ?_)
  match a with
  | ⟨0, _⟩ =>
    show 0 = if (1 : Nat) = 1 then 0 else r.val
    rw [if_pos rfl]
  | ⟨1, _⟩ =>
    show j.val = if N = 1 then 0 else j.val
    split_ifs with hN
    · have := j.isLt; omega
    · rfl

/-- The two steps together: a vector cast to one row and copied down n rows reads v j at (r, j). -/
theorem rows_apply {n N : Nat} (h1 : (⟨1, ![N]⟩ : Shape).ShapeCasts ⟨2, ![1, N]⟩)
    (h2 : (⟨2, ![1, N]⟩ : Shape).Broadcasts ⟨2, ![n, N]⟩) (v : (⟨1, ![N]⟩ : Shape).Idx → α) (r : Fin n) (j : Fin N) :
    broadcastTo (⟨2, ![n, N]⟩ : Shape) (shapeCast (⟨2, ![1, N]⟩ : Shape) v h1) h2 (ix2 r j) = v (ix1 j) :=
  (spreadRow_apply h2 _ r j).trans (castRow_apply h1 v j)

end Idealize.ShloMosaic.VecRows

end
-- ==== Proof.LibSplitDense.lean ====
/-
  A two-layer perceptron whose first layer reads two inputs laid side by side.

  For inputs x, y : [n, A], a weight matrix w : [K, H] with K = A + A, a bias b : [H] and a second weight matrix
  w2 : [H, O], the layer is
      out (r, j) = ∑ k < H, max (pre (r, k)) z · w2 (k, j),
      pre (r, k) = ∑ c < K, [x | y] (r, c) · w (c, k) + b k,
  where [x | y] is the concatenation of x and y along the columns and z is the floor of the rectifier (the number
  zero, kept as the word that denotes it). A sum over A + A positions is the sum over the first A positions plus the
  sum over the last A; this uses only that + on the extended reals is associative and commutative, so nothing has to
  be finite. Hence
      pre (r, k) = ∑ a < A, x (r, a) · w (a, k) + ∑ a < A, y (r, a) · w (A + a, k) + b k,
  which is the form a vector program computes when it multiplies the two [n, A] blocks by the upper and the lower
  half of w separately and adds the products. `split` is that second form as one function of the six arrays;
  `vec_ix2` reads a vector program's spelling of it at an entry, and `host_eq` says the host's spelling — a
  `dot_general` of the concatenation against the whole of w — is the same array when the halves are w's two row
  slices.
-/
import Idealize.ShloMosaic.Lib.ValueIdx
import Idealize.ShloMosaic.Lib.Pipeline.Value
import Idealize.ShloMosaic.PureOps.Ideal.Laws
import proofs.«115159_j74741020885174_1_alg».proof.Proof.LibDenseVec
import proofs.«115159_j74741020885174_1_alg».proof.Proof.LibVecRows

noncomputable section

open scoped BigOperators

namespace Idealize.ShloMosaic.SplitDense

open Idealize.ShloMosaic Idealize.ShloMosaic.ValueIdx

variable {n A K H O : ℕ}

/-- A sum over A + A positions: the first A, then the last A. -/
theorem sum_fin_double {M : Type*} [AddCommMonoid M] (hK : K = A + A) (f : Fin K → M) :
    ∑ c : Fin K, f c
      = ∑ a : Fin A, f ⟨a.val, by have := a.isLt; omega⟩ + ∑ a : Fin A, f ⟨A + a.val, by have := a.isLt; omega⟩ := by
  subst hK
  rw [Fin.sum_univ_add]
  rfl

/-- The layer at the entry (r, j), with the first layer's sum already split over the two inputs. -/
def splitAt (x y : (⟨2, ![n, A]⟩ : Shape).Idx → EReal) (wa wb : (⟨2, ![A, H]⟩ : Shape).Idx → EReal)
    (b : (⟨1, ![H]⟩ : Shape).Idx → EReal) (w2 : (⟨2, ![H, O]⟩ : Shape).Idx → EReal) (z : EReal) (r : Fin n) (j : Fin O) :
    EReal :=
  ∑ k : Fin H, max (∑ a : Fin A, x (ix2 r a) * wa (ix2 a k) + ∑ a : Fin A, y (ix2 r a) * wb (ix2 a k) + b (ix1 k)) z
    * w2 (ix2 k j)

/-- The layer as one array. -/
def split (x y : (⟨2, ![n, A]⟩ : Shape).Idx → EReal) (wa wb : (⟨2, ![A, H]⟩ : Shape).Idx → EReal)
    (b : (⟨1, ![H]⟩ : Shape).Idx → EReal) (w2 : (⟨2, ![H, O]⟩ : Shape).Idx → EReal) (z : EReal) :
    (⟨2, ![n, O]⟩ : Shape).Idx → EReal :=
  fun i => splitAt x y wa wb b w2 z (i 0) (i 1)

theorem split_ix2 (x y : (⟨2, ![n, A]⟩ : Shape).Idx → EReal) (wa wb : (⟨2, ![A, H]⟩ : Shape).Idx → EReal)
    (b : (⟨1, ![H]⟩ : Shape).Idx → EReal) (w2 : (⟨2, ![H, O]⟩ : Shape).Idx → EReal) (z : EReal) (r : Fin n) (j : Fin O) :
    split x y wa wb b w2 z (ix2 r j) = splitAt x y wa wb b w2 z r j := rfl

/-- The layer at (r, j) reads the two inputs only in their row r: two pairs of inputs that agree there (in arrays of
    any heights) give the same value. -/
theorem splitAt_congr {n' : ℕ} (x y : (⟨2, ![n, A]⟩ : Shape).Idx → EReal) (x' y' : (⟨2, ![n', A]⟩ : Shape).Idx → EReal)
    (wa wb : (⟨2, ![A, H]⟩ : Shape).Idx → EReal) (b : (⟨1, ![H]⟩ : Shape).Idx → EReal)
    (w2 : (⟨2, ![H, O]⟩ : Shape).Idx → EReal) (z : EReal) (r : Fin n) (r' : Fin n') (j j' : Fin O) (hj : j = j')
    (hx : ∀ a : Fin A, x (ix2 r a) = x' (ix2 r' a)) (hy : ∀ a : Fin A, y (ix2 r a) = y' (ix2 r' a)) :
    splitAt x y wa wb b w2 z r j = splitAt x' y' wa wb b w2 z r' j' := by
  subst hj
  unfold splitAt
  simp only [hx, hy]

/-- A vector program's spelling, read at (r, j): both inputs and all three matrices rounded to a narrower format on
    the way into the products (the identity on the extended reals), the two first-layer products taken into zero
    accumulators and added, the bias cast to one row and copied down the rows, the rectifier a maximum with a
    splat of zero, and the second product again into a zero accumulator. -/
theorem vec_ix2
    {D1 : DotDims (⟨2, ![n, A]⟩ : Shape) (⟨2, ![A, H]⟩ : Shape) (⟨2, ![n, H]⟩ : Shape)} (h1 : DenseVec.Plain D1)
    {D2 : DotDims (⟨2, ![n, H]⟩ : Shape) (⟨2, ![H, O]⟩ : Shape) (⟨2, ![n, O]⟩ : Shape)} (h2 : DenseVec.Plain D2)
    (x y : FVec Ideal (⟨2, ![n, A]⟩ : Shape) .f32) (wa wb : FVec Ideal (⟨2, ![A, H]⟩ : Shape) .f32)
    (b : FVec Ideal (⟨1, ![H]⟩ : Shape) .f32) (w2 : FVec Ideal (⟨2, ![H, O]⟩ : Shape) .f32)
    (cx : (⟨2, ![n, A]⟩ : Shape).ShapeCasts ⟨2, ![n, A]⟩) (cw : (⟨2, ![A, H]⟩ : Shape).ShapeCasts ⟨2, ![A, H]⟩)
    (cb1 : (⟨1, ![H]⟩ : Shape).ShapeCasts ⟨2, ![1, H]⟩) (cb2 : (⟨2, ![1, H]⟩ : Shape).ShapeCasts ⟨2, ![1, H]⟩)
    (bb : (⟨2, ![1, H]⟩ : Shape).Broadcasts ⟨2, ![n, H]⟩) (lt : FTy.bits .bf16 < FTy.bits .f32) (r : Fin n) (j : Fin O) :
    matmul D2 none
        (truncf .bf16 (maximumf (addf (addf
              (matmul D1 none (truncf .bf16 x lt) (truncf .bf16 (shapeCast (⟨2, ![A, H]⟩ : Shape) wa cw) lt)
                (constant (F := Ideal) (⟨2, ![n, H]⟩ : Shape) .f32 0x00000000#32))
              (matmul D1 none (truncf .bf16 (shapeCast (⟨2, ![n, A]⟩ : Shape) y cx) lt)
                (truncf .bf16 (shapeCast (⟨2, ![A, H]⟩ : Shape) wb cw) lt)
                (constant (F := Ideal) (⟨2, ![n, H]⟩ : Shape) .f32 0x00000000#32)))
            (broadcastTo (⟨2, ![n, H]⟩ : Shape)
              (shapeCast (⟨2, ![1, H]⟩ : Shape) (shapeCast (⟨2, ![1, H]⟩ : Shape) b cb1) cb2) bb))
          (broadcast (⟨2, ![n, H]⟩ : Shape) (Scalar.ofBits (F := Ideal) .f32 0x00000000#32))) lt)
        (truncf .bf16 w2 lt) (constant (F := Ideal) (⟨2, ![n, O]⟩ : Shape) .f32 0x00000000#32) (ix2 r j)
      = splitAt x y wa wb b w2 (Ideal.ofBits .f32 0x00000000#32) r j := by
  rw [shapeCast_self wa cw, shapeCast_self wb cw, shapeCast_self y cx, shapeCast_self (shapeCast (⟨2, ![1, H]⟩ : Shape) b cb1) cb2]
  refine (DenseVec.matmul_zero_ix2 h2 none _ _ r j).trans ?_
  unfold splitAt
  refine Finset.sum_congr rfl fun k _ => ?_
  have e1 := DenseVec.matmul_zero_ix2 h1 none (truncf .bf16 x lt) (truncf .bf16 wa lt) r k
  have e2 := DenseVec.matmul_zero_ix2 h1 none (truncf .bf16 y lt) (truncf .bf16 wb lt) r k
  have e3 := VecRows.rows_apply cb1 bb b r k
  show max (matmul D1 none (truncf .bf16 x lt) (truncf .bf16 wa lt)
          (constant (F := Ideal) (⟨2, ![n, H]⟩ : Shape) .f32 0x00000000#32) (ix2 r k)
        + matmul D1 none (truncf .bf16 y lt) (truncf .bf16 wb lt)
          (constant (F := Ideal) (⟨2, ![n, H]⟩ : Shape) .f32 0x00000000#32) (ix2 r k)
        + broadcastTo (⟨2, ![n, H]⟩ : Shape) (shapeCast (⟨2, ![1, H]⟩ : Shape) b cb1) bb (ix2 r k))
      (Ideal.ofBits .f32 0x00000000#32) * w2 (ix2 k j) = _
  rw [e1, e2, e3]
  rfl

/-- The host's spelling is the same array: the first layer one `dot_general` of the concatenation [x | y] against the
    whole of w, the bias laid along the rows in two broadcast steps, the rectifier a maximum with a broadcast zero,
    the second layer another `dot_general`; the split form's two weight blocks are w's upper and lower row slices. -/
theorem host_eq (hK : K = A + A)
    {Dj : DotDims (⟨2, ![n, K]⟩ : Shape) (⟨2, ![K, H]⟩ : Shape) (⟨2, ![n, H]⟩ : Shape)} (hj : DenseVec.Plain Dj)
    {D2 : DotDims (⟨2, ![n, H]⟩ : Shape) (⟨2, ![H, O]⟩ : Shape) (⟨2, ![n, O]⟩ : Shape)} (h2 : DenseVec.Plain D2)
    (x y : FVec Ideal (⟨2, ![n, A]⟩ : Shape) .f32) (w : FVec Ideal (⟨2, ![K, H]⟩ : Shape) .f32)
    (b : FVec Ideal (⟨1, ![H]⟩ : Shape) .f32) (w2 : FVec Ideal (⟨2, ![H, O]⟩ : Shape) .f32)
    (hc : Shape.Concatenates [(⟨2, ![n, A]⟩ : Shape), (⟨2, ![n, A]⟩ : Shape)] (⟨2, ![n, K]⟩ : Shape) 1)
    (hs0 : (⟨2, ![K, H]⟩ : Shape).Slices ![0, 0] ⟨2, ![A, H]⟩) (hs1 : (⟨2, ![K, H]⟩ : Shape).Slices ![A, 0] ⟨2, ![A, H]⟩)
    (hb1 : (⟨1, ![H]⟩ : Shape).BroadcastsInDim ⟨2, ![1, H]⟩ ![1])
    (hb2 : (⟨2, ![1, H]⟩ : Shape).BroadcastsInDim ⟨2, ![n, H]⟩ ![0, 1])
    (hz : (⟨0, ![]⟩ : Shape).BroadcastsInDim ⟨2, ![n, H]⟩ ![]) :
    Host.dotGeneral D2 none
        (maximumf (addf
            (Host.dotGeneral Dj none
              (concatenate (⟨2, ![n, K]⟩ : Shape) 1 [⟨(⟨2, ![n, A]⟩ : Shape), x⟩, ⟨(⟨2, ![n, A]⟩ : Shape), y⟩] hc) w)
            (broadcastInDim (⟨2, ![n, H]⟩ : Shape) ![0, 1] hb2 (broadcastInDim (⟨2, ![1, H]⟩ : Shape) ![1] hb1 b)))
          (broadcastInDim (⟨2, ![n, H]⟩ : Shape) ![] hz (constant (F := Ideal) (⟨0, ![]⟩ : Shape) .f32 0x00000000#32))) w2
      = split x y (extractStridedSlice (⟨2, ![A, H]⟩ : Shape) ![0, 0] w hs0)
          (extractStridedSlice (⟨2, ![A, H]⟩ : Shape) ![A, 0] w hs1) b w2 (Ideal.ofBits .f32 0x00000000#32) := by
  funext i
  obtain ⟨r, j, rfl⟩ : ∃ (r : Fin n) (j : Fin O), i = ix2 r j := ⟨i 0, i 1, eq_ix2 i⟩
  rw [split_ix2]
  refine (DenseVec.dotGeneral_ix2 h2 none _ w2 r j).trans ?_
  unfold splitAt
  refine Finset.sum_congr rfl fun k _ => ?_
  have e1 := DenseVec.dotGeneral_ix2 hj none
    (concatenate (⟨2, ![n, K]⟩ : Shape) 1 [⟨(⟨2, ![n, A]⟩ : Shape), x⟩, ⟨(⟨2, ![n, A]⟩ : Shape), y⟩] hc) w r k
  have e3 := Keepdims.cols_apply hb1 hb2 b r k
  -- the concatenation read in its left and in its right half
  have cl : ∀ a : Fin A, concatenate (⟨2, ![n, K]⟩ : Shape) 1 [⟨(⟨2, ![n, A]⟩ : Shape), x⟩, ⟨(⟨2, ![n, A]⟩ : Shape), y⟩] hc
      (ix2 r (⟨a.val, by have := a.isLt; omega⟩ : Fin K)) = x (ix2 r a) := fun a =>
    concatenate_pair_apply_left (1 : Fin 2) x y hc (ix2 r (⟨a.val, by have := a.isLt; omega⟩ : Fin K)) rfl (ix2 r a)
      (fun d => match d with
        | ⟨0, _⟩ => rfl
        | ⟨1, _⟩ => rfl)
  have cr : ∀ a : Fin A, concatenate (⟨2, ![n, K]⟩ : Shape) 1 [⟨(⟨2, ![n, A]⟩ : Shape), x⟩, ⟨(⟨2, ![n, A]⟩ : Shape), y⟩] hc
      (ix2 r (⟨A + a.val, by have := a.isLt; omega⟩ : Fin K)) = y (ix2 r a) := fun a =>
    concatenate_pair_apply_right (1 : Fin 2) x y hc (ix2 r (⟨A + a.val, by have := a.isLt; omega⟩ : Fin K)) rfl rfl (ix2 r a)
      (fun d hd => match d, hd with
        | ⟨0, _⟩, _ => rfl
        | ⟨1, _⟩, hd => absurd rfl hd)
      (by show a.val + A = A + a.val; omega)
  -- the two row slices of the weight matrix
  have wl : ∀ a : Fin A, extractStridedSlice (⟨2, ![A, H]⟩ : Shape) ![0, 0] w hs0 (ix2 a k)
      = w (ix2 (⟨a.val, by have := a.isLt; omega⟩ : Fin K) k) := fun a =>
    extractStridedSlice_apply ![0, 0] w hs0 (ix2 a k) (ix2 (⟨a.val, by have := a.isLt; omega⟩ : Fin K) k)
      (fun d => match d with
        | ⟨0, _⟩ => by show a.val = 0 + a.val; omega
        | ⟨1, _⟩ => by show k.val = 0 + k.val; omega)
  have wr : ∀ a : Fin A, extractStridedSlice (⟨2, ![A, H]⟩ : Shape) ![A, 0] w hs1 (ix2 a k)
      = w (ix2 (⟨A + a.val, by have := a.isLt; omega⟩ : Fin K) k) := fun a =>
    extractStridedSlice_apply ![A, 0] w hs1 (ix2 a k) (ix2 (⟨A + a.val, by have := a.isLt; omega⟩ : Fin K) k)
      (fun d => match d with
        | ⟨0, _⟩ => by show A + a.val = A + a.val; rfl
        | ⟨1, _⟩ => by show k.val = 0 + k.val; omega)
  show max (Host.dotGeneral Dj none
          (concatenate (⟨2, ![n, K]⟩ : Shape) 1 [⟨(⟨2, ![n, A]⟩ : Shape), x⟩, ⟨(⟨2, ![n, A]⟩ : Shape), y⟩] hc) w (ix2 r k)
        + broadcastInDim (⟨2, ![n, H]⟩ : Shape) ![0, 1] hb2 (broadcastInDim (⟨2, ![1, H]⟩ : Shape) ![1] hb1 b) (ix2 r k))
      (Ideal.ofBits .f32 0x00000000#32) * w2 (ix2 k j) = _
  rw [e1, e3, sum_fin_double hK]
  simp only [cl, cr, wl, wr]

end Idealize.ShloMosaic.SplitDense

end
-- ==== Proof.EdgeLayer.lean ====
/-
  The value of the per-edge layer (the first kernel region), as one function of the arrays the region finds.

  At grid point t the region's body reads rows t·4000 … t·4000 + 3999 of its two row-blocked inputs and the whole of its two
  first-layer weight blocks, its bias and its second-layer weights, and writes rows t·4000 … of its output. Entry (p, q) of
  the block it writes is the two-layer perceptron (first layer split over the two inputs) of row p of the two input
  blocks, that is, of row t·4000 + p of the two input arrays: the output block is the block of ONE whole-array
  function. The 1600 blocks tile the [6400000, 10] output (row r lies in block r / 4000), so after the region the
  output array is that function everywhere.
-/
import proofs.«115159_j74741020885174_1_alg».proof.Proof.Gen.KernelIdeal.Frame
import Idealize.ShloMosaic.Lib.Pipeline.Value
import proofs.«115159_j74741020885174_1_alg».proof.Proof.LibSplitDense

noncomputable section

namespace Cert.KernelIdeal.EdgeLayer

open Cert.KernelIdeal Cert.KernelIdeal.Gen Idealize.ShloMosaic Idealize.ShloMosaic.TcCoe Idealize.SL.Sem
open Idealize.ShloMosaic.ValueIdx
open Idealize.ShloMosaic.Pipeline (Dat)

/-- The rectifier's floor: the word of zero. -/
abbrev z : EReal := Ideal.ofBits .f32 0x00000000#32

/-! ## The products' dimension records contract the left operand's columns with the right operand's rows -/

theorem plain1 : DenseVec.Plain dot_S4000x10_S10x10_S4000x10_1_0_0_1_n_n := by
  refine ⟨rfl, fun _ => rfl, rfl, rfl, fun j q => ?_, fun j q => ?_⟩
  · unfold DotDims.lhsIdx
    rw [dif_neg (show ¬(0 : Fin S4000x10.rank) ∈ dot_S4000x10_S10x10_S4000x10_1_0_0_1_n_n.lhsBatch by decide),
      dif_pos (show (0 : Fin S4000x10.rank) ∈ dot_S4000x10_S10x10_S4000x10_1_0_0_1_n_n.lhsNonContracting by decide)]
    rfl
  · unfold DotDims.rhsIdx
    rw [dif_neg (show ¬(1 : Fin S10x10.rank) ∈ dot_S4000x10_S10x10_S4000x10_1_0_0_1_n_n.rhsBatch by decide),
      dif_pos (show (1 : Fin S10x10.rank) ∈ dot_S4000x10_S10x10_S4000x10_1_0_0_1_n_n.rhsNonContracting by decide)]
    rfl

theorem plain2 : DenseVec.Plain dot_S4000x10_S10x10_S4000x10_1_0_0_1_n_n := plain1

/-! ## The body's stored value at an entry -/

/-- Entry (p, q) of what the body stores is the split perceptron of row p of its loaded blocks. -/
theorem payload_ix2 (x0 x1 : Vec Ideal S4000x10 .f32) (x2 x3 : Vec Ideal S10x10 .f32) (x4 : Vec Ideal S10 .f32)
    (x5 : Vec Ideal S10x10 .f32) (p : Fin 4000) (q : Fin 10) :
    k0_pay1 x0 x1 x2 x3 x4 x5 (ix2 p q) = SplitDense.splitAt x0 x1 x2 x3 x4 x5 z p q := by
  unfold k0_pay1
  exact SplitDense.vec_ix2 plain1 plain2 x0 x1 x2 x3 x4 x5 _ _ _ _ _ _ p q

/-! ## From blocks to the array -/

section
variable (V : (c : Dev nD) → (b : Ref sig .tc) → Buf (Elt Ideal) ((c : Thread nD τ).loc b))

/-- What the region leaves in its output array: the split perceptron of the six arrays it reads, as it finds them. -/
def G (c : Dev nD) : S6400000x10.Idx → EReal :=
  SplitDense.split (n := 6400000) (A := 10) (H := 10) (O := 10) (V c main_arg2) (V c main_v10) (V c main_v11) (V c main_v12) (V c main_arg4) (V c main_arg5) z

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-blocked inputs move with the output, block t at point t; the
    weights and the bias stay at block 0. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT t WRITES BACK is block t of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz2]
  simp only [View.ld_unit_zero (S := S4000x10) hz2, View.ld_unit_zero (S := S10x10) hz2, View.ld_unit_zero (S := S10x10) hz2,
    View.ld_unit_zero (S := S10) hz1]
  obtain ⟨e00, e01, e10, e11, e20, e21, e30, e31, e40, e50, e51, e60, e61⟩ := idx_facts t
  funext j
  obtain ⟨p, q, rfl⟩ : ∃ (p : Fin 4000) (q : Fin 10), j = ix2 p q := ⟨j 0, j 1, eq_ix2 j⟩
  show k0_pay1 (iblk0 V c 0 t) (iblk0 V c 1 t) (iblk0 V c 2 t) (iblk0 V c 3 t) (iblk0 V c 4 t) (iblk0 V c 5 t) (ix2 p q)
      = G V c (((cfg0.win 6).blk t).view.emb (ix2 p q))
  refine (payload_ix2 (iblk0 V c 0 t) (iblk0 V c 1 t) (iblk0 V c 2 t) (iblk0 V c 3 t) (iblk0 V c 4 t) (iblk0 V c 5 t) p q).trans ?_
  -- the weights' and the bias' blocks are the whole arrays
  have w2 : (iblk0 V c 2 t : S10x10.Idx → EReal) = V c main_v11 := funext fun y => congrArg (V c main_v11) (funext fun a => Fin.ext (by
    match a with
    | ⟨0, _⟩ => show win0_2.index t (0 : Fin 2) * 10 + 1 * (y 0).val = (y 0).val; omega
    | ⟨1, _⟩ => show win0_2.index t (1 : Fin 2) * 10 + 1 * (y 1).val = (y 1).val; omega))
  have w3 : (iblk0 V c 3 t : S10x10.Idx → EReal) = V c main_v12 := funext fun y => congrArg (V c main_v12) (funext fun a => Fin.ext (by
    match a with
    | ⟨0, _⟩ => show win0_3.index t (0 : Fin 2) * 10 + 1 * (y 0).val = (y 0).val; omega
    | ⟨1, _⟩ => show win0_3.index t (1 : Fin 2) * 10 + 1 * (y 1).val = (y 1).val; omega))
  have w4 : (iblk0 V c 4 t : S10.Idx → EReal) = V c main_arg4 := funext fun y => congrArg (V c main_arg4) (funext fun a => Fin.ext (by
    match a with
    | ⟨0, _⟩ => show win0_4.index t (0 : Fin 1) * 10 + 1 * (y 0).val = (y 0).val; omega))
  have w5 : (iblk0 V c 5 t : S10x10.Idx → EReal) = V c main_arg5 := funext fun y => congrArg (V c main_arg5) (funext fun a => Fin.ext (by
    match a with
    | ⟨0, _⟩ => show win0_5.index t (0 : Fin 2) * 10 + 1 * (y 0).val = (y 0).val; omega
    | ⟨1, _⟩ => show win0_5.index t (1 : Fin 2) * 10 + 1 * (y 1).val = (y 1).val; omega))
  rw [w2, w3, w4, w5]
  -- row p of the two input blocks is row t·4000 + p of the two input arrays, which is the output entry's row
  refine SplitDense.splitAt_congr (n := 4000) (n' := 6400000) _ _ (V c main_arg2) (V c main_v10) _ _ _ _ z p
    (((cfg0.win 6).blk t).view.emb (ix2 p q) 0) q (((cfg0.win 6).blk t).view.emb (ix2 p q) 1) ?_ (fun a => ?_) (fun a => ?_)
  · exact Fin.ext (by show q.val = win0_6.index t (1 : Fin 2) * 10 + 1 * q.val; omega)
  · exact congrArg (V c main_arg2) (funext fun d => Fin.ext (by
      match d with
      | ⟨0, _⟩ => show win0_0.index t (0 : Fin 2) * 4000 + 1 * p.val = win0_6.index t (0 : Fin 2) * 4000 + 1 * p.val; omega
      | ⟨1, _⟩ => show win0_0.index t (1 : Fin 2) * 10 + 1 * a.val = a.val; omega))
  · exact congrArg (V c main_v10) (funext fun d => Fin.ext (by
      match d with
      | ⟨0, _⟩ => show win0_1.index t (0 : Fin 2) * 4000 + 1 * p.val = win0_6.index t (0 : Fin 2) * 4000 + 1 * p.val; omega
      | ⟨1, _⟩ => show win0_1.index t (1 : Fin 2) * 10 + 1 * a.val = a.val; omega))

/-- An index of the output array is in point t's block iff each coordinate is in the block's range on its axis. -/
theorem mem_blk (t : Fin cfg0.N) (i : S6400000x10.Idx) :
    i ∈ ((cfg0.win 6).blk t).view.set ↔ ∀ a : Fin 2, win0_6.index t a * S4000x10.size a ≤ (i a).val ∧ (i a).val < win0_6.index t a * S4000x10.size a + S4000x10.size a := by
  show i ∈ ((View.whole main_v13).slice (win0_6.rect t)).set ↔ _
  rw [View.set_slice_whole, Rect.mem_set_unit]
  exact Iff.rfl

/-- Every index of the output array is in some point's block: row r is in block r / 4000. -/
theorem cover (i : S6400000x10.Idx) :
    ∃ t : Fin cfg0.N, (cfg0.win 6).flush t = true ∧ i ∈ ((cfg0.win 6).blk t).view.set := by
  have hi0 : (i 0).val < 6400000 := (i 0).isLt
  have hi1 : (i 1).val < 10 := (i 1).isLt
  obtain ⟨t, ht⟩ : ∃ t : Fin cfg0.N, t.val = (i 0).val / 4000 :=
    ⟨⟨(i 0).val / 4000, lt_of_lt_of_eq (by omega : (i 0).val / 4000 < 1600) N_0.symm⟩, rfl⟩
  obtain ⟨e00, e01, e10, e11, e20, e21, e30, e31, e40, e50, e51, e60, e61⟩ := idx_facts t
  refine ⟨t, flush0_6 t, ?_⟩
  rw [mem_blk]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 10 ≤ (i 1).val ∧ (i 1).val < win0_6.index t (1 : Fin 2) * 10 + 10
    omega

/-- THE OUTPUT ARRAY after the region: `G` of the arrays the region found. -/
theorem arr_eq (c : Dev nD) : (dat0 V c).arrAt 6 cfg0.N = G V c :=
  (dat0 V c).arrAt_eq_of_cover 6 (G V c) (fun t _ => flushed_eq V c t) cover

end

end Cert.KernelIdeal.EdgeLayer

end
-- ==== Proof.NodeLayer.lean ====
/-
  The value of the per-node layer (the second kernel region), as one function of the arrays the region finds.

  At grid point t the region's body reads rows t·5000 … t·5000 + 4999 of its two row-blocked inputs and the whole of its two
  first-layer weight blocks, its bias and its second-layer weights, and writes rows t·5000 … of its output. Entry (p, q) of
  the block it writes is the two-layer perceptron (first layer split over the two inputs) of row p of the two input
  blocks, that is, of row t·5000 + p of the two input arrays: the output block is the block of ONE whole-array
  function. The 20 blocks tile the [100000, 10] output (row r lies in block r / 5000), so after the region the
  output array is that function everywhere.
-/
import proofs.«115159_j74741020885174_1_alg».proof.Proof.Gen.KernelIdeal.Frame
import Idealize.ShloMosaic.Lib.Pipeline.Value
import proofs.«115159_j74741020885174_1_alg».proof.Proof.LibSplitDense

noncomputable section

namespace Cert.KernelIdeal.NodeLayer

open Cert.KernelIdeal Cert.KernelIdeal.Gen Idealize.ShloMosaic Idealize.ShloMosaic.TcCoe Idealize.SL.Sem
open Idealize.ShloMosaic.ValueIdx
open Idealize.ShloMosaic.Pipeline (Dat)

/-- The rectifier's floor: the word of zero. -/
abbrev z : EReal := Ideal.ofBits .f32 0x00000000#32

/-! ## The products' dimension records contract the left operand's columns with the right operand's rows -/

theorem plain1 : DenseVec.Plain dot_S5000x10_S10x20_S5000x20_1_0_0_1_n_n := by
  refine ⟨rfl, fun _ => rfl, rfl, rfl, fun j q => ?_, fun j q => ?_⟩
  · unfold DotDims.lhsIdx
    rw [dif_neg (show ¬(0 : Fin S5000x10.rank) ∈ dot_S5000x10_S10x20_S5000x20_1_0_0_1_n_n.lhsBatch by decide),
      dif_pos (show (0 : Fin S5000x10.rank) ∈ dot_S5000x10_S10x20_S5000x20_1_0_0_1_n_n.lhsNonContracting by decide)]
    rfl
  · unfold DotDims.rhsIdx
    rw [dif_neg (show ¬(1 : Fin S10x20.rank) ∈ dot_S5000x10_S10x20_S5000x20_1_0_0_1_n_n.rhsBatch by decide),
      dif_pos (show (1 : Fin S10x20.rank) ∈ dot_S5000x10_S10x20_S5000x20_1_0_0_1_n_n.rhsNonContracting by decide)]
    rfl

theorem plain2 : DenseVec.Plain dot_S5000x20_S20x10_S5000x10_1_0_0_1_n_n := by
  refine ⟨rfl, fun _ => rfl, rfl, rfl, fun j q => ?_, fun j q => ?_⟩
  · unfold DotDims.lhsIdx
    rw [dif_neg (show ¬(0 : Fin S5000x20.rank) ∈ dot_S5000x20_S20x10_S5000x10_1_0_0_1_n_n.lhsBatch by decide),
      dif_pos (show (0 : Fin S5000x20.rank) ∈ dot_S5000x20_S20x10_S5000x10_1_0_0_1_n_n.lhsNonContracting by decide)]
    rfl
  · unfold DotDims.rhsIdx
    rw [dif_neg (show ¬(1 : Fin S20x10.rank) ∈ dot_S5000x20_S20x10_S5000x10_1_0_0_1_n_n.rhsBatch by decide),
      dif_pos (show (1 : Fin S20x10.rank) ∈ dot_S5000x20_S20x10_S5000x10_1_0_0_1_n_n.rhsNonContracting by decide)]
    rfl

/-! ## The body's stored value at an entry -/

/-- Entry (p, q) of what the body stores is the split perceptron of row p of its loaded blocks. -/
theorem payload_ix2 (x0 x1 : Vec Ideal S5000x10 .f32) (x2 x3 : Vec Ideal S10x20 .f32) (x4 : Vec Ideal S20 .f32)
    (x5 : Vec Ideal S20x10 .f32) (p : Fin 5000) (q : Fin 10) :
    k1_pay1 x0 x1 x2 x3 x4 x5 (ix2 p q) = SplitDense.splitAt x0 x1 x2 x3 x4 x5 z p q := by
  unfold k1_pay1
  exact SplitDense.vec_ix2 plain1 plain2 x0 x1 x2 x3 x4 x5 _ _ _ _ _ _ p q

/-! ## From blocks to the array -/

section
variable (V : (c : Dev nD) → (b : Ref sig .tc) → Buf (Elt Ideal) ((c : Thread nD τ).loc b))

/-- What the region leaves in its output array: the split perceptron of the six arrays it reads, as it finds them. -/
def G (c : Dev nD) : S100000x10.Idx → EReal :=
  SplitDense.split (n := 100000) (A := 10) (H := 20) (O := 10) (V c main_arg0) (V c main_v29) (V c main_v30) (V c main_v31) (V c main_arg7) (V c main_arg8) z

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-blocked inputs move with the output, block t at point t; the
    weights and the bias stay at block 0. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT t WRITES BACK is block t of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz2]
  simp only [View.ld_unit_zero (S := S5000x10) hz2, View.ld_unit_zero (S := S10x20) hz2, View.ld_unit_zero (S := S20x10) hz2,
    View.ld_unit_zero (S := S20) hz1]
  obtain ⟨e00, e01, e10, e11, e20, e21, e30, e31, e40, e50, e51, e60, e61⟩ := idx_facts t
  funext j
  obtain ⟨p, q, rfl⟩ : ∃ (p : Fin 5000) (q : Fin 10), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q)
      = G V c (((cfg1.win 6).blk t).view.emb (ix2 p q))
  refine (payload_ix2 (iblk1 V c 0 t) (iblk1 V c 1 t) (iblk1 V c 2 t) (iblk1 V c 3 t) (iblk1 V c 4 t) (iblk1 V c 5 t) p q).trans ?_
  -- the weights' and the bias' blocks are the whole arrays
  have w2 : (iblk1 V c 2 t : S10x20.Idx → EReal) = V c main_v30 := funext fun y => congrArg (V c main_v30) (funext fun a => Fin.ext (by
    match a with
    | ⟨0, _⟩ => show win1_2.index t (0 : Fin 2) * 10 + 1 * (y 0).val = (y 0).val; omega
    | ⟨1, _⟩ => show win1_2.index t (1 : Fin 2) * 20 + 1 * (y 1).val = (y 1).val; omega))
  have w3 : (iblk1 V c 3 t : S10x20.Idx → EReal) = V c main_v31 := funext fun y => congrArg (V c main_v31) (funext fun a => Fin.ext (by
    match a with
    | ⟨0, _⟩ => show win1_3.index t (0 : Fin 2) * 10 + 1 * (y 0).val = (y 0).val; omega
    | ⟨1, _⟩ => show win1_3.index t (1 : Fin 2) * 20 + 1 * (y 1).val = (y 1).val; omega))
  have w4 : (iblk1 V c 4 t : S20.Idx → EReal) = V c main_arg7 := funext fun y => congrArg (V c main_arg7) (funext fun a => Fin.ext (by
    match a with
    | ⟨0, _⟩ => show win1_4.index t (0 : Fin 1) * 20 + 1 * (y 0).val = (y 0).val; omega))
  have w5 : (iblk1 V c 5 t : S20x10.Idx → EReal) = V c main_arg8 := funext fun y => congrArg (V c main_arg8) (funext fun a => Fin.ext (by
    match a with
    | ⟨0, _⟩ => show win1_5.index t (0 : Fin 2) * 20 + 1 * (y 0).val = (y 0).val; omega
    | ⟨1, _⟩ => show win1_5.index t (1 : Fin 2) * 10 + 1 * (y 1).val = (y 1).val; omega))
  rw [w2, w3, w4, w5]
  -- row p of the two input blocks is row t·5000 + p of the two input arrays, which is the output entry's row
  refine SplitDense.splitAt_congr (n := 5000) (n' := 100000) _ _ (V c main_arg0) (V c main_v29) _ _ _ _ z p
    (((cfg1.win 6).blk t).view.emb (ix2 p q) 0) q (((cfg1.win 6).blk t).view.emb (ix2 p q) 1) ?_ (fun a => ?_) (fun a => ?_)
  · exact Fin.ext (by show q.val = win1_6.index t (1 : Fin 2) * 10 + 1 * q.val; omega)
  · exact congrArg (V c main_arg0) (funext fun d => Fin.ext (by
      match d with
      | ⟨0, _⟩ => show win1_0.index t (0 : Fin 2) * 5000 + 1 * p.val = win1_6.index t (0 : Fin 2) * 5000 + 1 * p.val; omega
      | ⟨1, _⟩ => show win1_0.index t (1 : Fin 2) * 10 + 1 * a.val = a.val; omega))
  · exact congrArg (V c main_v29) (funext fun d => Fin.ext (by
      match d with
      | ⟨0, _⟩ => show win1_1.index t (0 : Fin 2) * 5000 + 1 * p.val = win1_6.index t (0 : Fin 2) * 5000 + 1 * p.val; omega
      | ⟨1, _⟩ => show win1_1.index t (1 : Fin 2) * 10 + 1 * a.val = a.val; omega))

/-- An index of the output array is in point t's block iff each coordinate is in the block's range on its axis. -/
theorem mem_blk (t : Fin cfg1.N) (i : S100000x10.Idx) :
    i ∈ ((cfg1.win 6).blk t).view.set ↔ ∀ a : Fin 2, win1_6.index t a * S5000x10.size a ≤ (i a).val ∧ (i a).val < win1_6.index t a * S5000x10.size a + S5000x10.size a := by
  show i ∈ ((View.whole main_v32).slice (win1_6.rect t)).set ↔ _
  rw [View.set_slice_whole, Rect.mem_set_unit]
  exact Iff.rfl

/-- Every index of the output array is in some point's block: row r is in block r / 5000. -/
theorem cover (i : S100000x10.Idx) :
    ∃ t : Fin cfg1.N, (cfg1.win 6).flush t = true ∧ i ∈ ((cfg1.win 6).blk t).view.set := by
  have hi0 : (i 0).val < 100000 := (i 0).isLt
  have hi1 : (i 1).val < 10 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨e00, e01, e10, e11, e20, e21, e30, e31, e40, e50, e51, e60, e61⟩ := idx_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 10 ≤ (i 1).val ∧ (i 1).val < win1_6.index t (1 : Fin 2) * 10 + 10
    omega

/-- THE OUTPUT ARRAY after the region: `G` of the arrays the region found. -/
theorem arr_eq (c : Dev nD) : (dat1 V c).arrAt 6 cfg1.N = G V c :=
  (dat1 V c).arrAt_eq_of_cover 6 (G V c) (fun t _ => flushed_eq V c t) cover

end

end Cert.KernelIdeal.NodeLayer

end
-- ==== Proof.KernelValue.lean ====
/-
  The kernel program's result as one function of its arguments, on the extended reals.

  Reading the segments' fold at the result buffer, from the end backwards: the per-node layer leaves in its output
  array the split perceptron of the six arrays it finds (the node features, the per-node mean of the messages, the
  two row slices of the second first-layer weight matrix, its bias and its second-layer weights); the mean is the host
  operations between the regions applied to the per-edge layer's output array and to the edge list's second row; the
  per-edge layer's output is the split perceptron of the edge features, the gathered neighbour features, the two row
  slices of the first weight matrix, its bias and its second-layer weights; and the gathered features and the slices
  are the host operations before the first region applied to the arguments. The host operations the two programs
  share — the gather of the neighbours' rows and the per-node mean — are named here as whole functions (`neigh`,
  `dst`, `mean`) and never opened.
-/
import proofs.«115159_j74741020885174_1_alg».proof.Proof.KernelRun
import proofs.«115159_j74741020885174_1_alg».proof.Proof.EdgeLayer
import proofs.«115159_j74741020885174_1_alg».proof.Proof.NodeLayer
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo

/-- The rectifier's floor: the word of zero. -/
abbrev z : EReal := Ideal.ofBits .f32 0x00000000#32

/-- The edge list's second row: for each edge, the node its message goes to. -/
def dst (x1 : (⟨S2x6400000, .i32⟩ : BufTy).Contents (Elt Ideal)) : (⟨S6400000, .i32⟩ : BufTy).Contents (Elt Ideal) :=
  shapeCast _ (extractStridedSlice S1x6400000 ![1, 0] x1 slices_S2x6400000_S1x6400000_1_0) shapeCasts_S1x6400000_S6400000

/-- The neighbours' features: row e is the row of the node features that the edge list's first row names for edge e (a
    negative index counted from the end, as the host's indexing does). -/
def neigh (x0 : (⟨S100000x10, .f32⟩ : BufTy).Contents (Elt Ideal)) (x1 : (⟨S2x6400000, .i32⟩ : BufTy).Contents (Elt Ideal)) :
    (⟨S6400000x10, .f32⟩ : BufTy).Contents (Elt Ideal) :=
  Host.gather gather_S100000x10_S6400000x1_S6400000x10_1_0_n_n_0_1_110 x0 (broadcastInDim S6400000x1 ![0] bcast_S6400000_S6400000x1_0 (select (cmpi .slt (shapeCast _ (extractStridedSlice S1x6400000 ![0, 0] x1 slices_S2x6400000_S1x6400000_0_0) shapeCasts_S1x6400000_S6400000) (broadcastInDim S6400000 ![] bcast_S_S6400000 (constantI S_ 32 0#32))) (addi (shapeCast _ (extractStridedSlice S1x6400000 ![0, 0] x1 slices_S2x6400000_S1x6400000_0_0) shapeCasts_S1x6400000_S6400000) (broadcastInDim S6400000 ![] bcast_S_S6400000 (constantI S_ 32 100000#32))) (shapeCast _ (extractStridedSlice S1x6400000 ![0, 0] x1 slices_S2x6400000_S1x6400000_0_0) shapeCasts_S1x6400000_S6400000)))

/-- How many messages each node receives: a one for every edge, summed into the edge's destination. -/
def cnt (d : (⟨S6400000, .i32⟩ : BufTy).Contents (Elt Ideal)) : (⟨S100000, .f32⟩ : BufTy).Contents (Elt Ideal) :=
  Host.scatterAdd scatter_S100000_S6400000x1_S6400000_n_0_0_1 (broadcastInDim S100000 ![] bcast_S_S100000 (constant (F := Ideal) S_ .f32 0x00000000#32)) (broadcastInDim S6400000x1 ![0] bcast_S6400000_S6400000x1_0 d) (broadcastInDim S6400000 ![] bcast_S_S6400000 (constant (F := Ideal) S_ .f32 0x3F800000#32))

/-- Which nodes receive a message at all. -/
def positive (d : (⟨S6400000, .i32⟩ : BufTy).Contents (Elt Ideal)) : (⟨S100000x1, .i1⟩ : BufTy).Contents (Elt Ideal) :=
  cmpf (F := Ideal) .ogt (broadcastInDim S100000x1 ![0] bcast_S100000_S100000x1_0 (cnt d)) (broadcastInDim S100000x1 ![] bcast_S_S100000x1 (constant (F := Ideal) S_ .f32 0x00000000#32))

/-- The messages summed into their destination rows, each row divided by its node's count (or by one, if that is larger). -/
def quotient (d : (⟨S6400000, .i32⟩ : BufTy).Contents (Elt Ideal)) (msgs : (⟨S6400000x10, .f32⟩ : BufTy).Contents (Elt Ideal)) :
    (⟨S100000x10, .f32⟩ : BufTy).Contents (Elt Ideal) :=
  Host.divf (Host.scatterAdd scatter_S100000x10_S6400000x1_S6400000x10_1_0_0_1 (broadcastInDim S100000x10 ![] bcast_S_S100000x10 (constant (F := Ideal) S_ .f32 0x00000000#32)) (broadcastInDim S6400000x1 ![0] bcast_S6400000_S6400000x1_0 d) msgs) (broadcastInDim S100000x10 ![0, 1] bcast_S100000x1_S100000x10_0_1 (maximumf (broadcastInDim S100000x1 ![0] bcast_S100000_S100000x1_0 (cnt d)) (broadcastInDim S100000x1 ![] bcast_S_S100000x1 (constant (F := Ideal) S_ .f32 0x3F800000#32))))

/-- The per-node mean of the messages: the quotient above where the node receives a message, 0 where it receives none. -/
def mean (d : (⟨S6400000, .i32⟩ : BufTy).Contents (Elt Ideal)) (msgs : (⟨S6400000x10, .f32⟩ : BufTy).Contents (Elt Ideal)) :
    (⟨S100000x10, .f32⟩ : BufTy).Contents (Elt Ideal) :=
  select (broadcastInDim S100000x10 ![0, 1] bcast_S100000x1_S100000x10_0_1 (positive d)) (quotient d msgs) (broadcastInDim S100000x10 ![] bcast_S_S100000x10 (id (constant (F := Ideal) S_ .f32 0x00000000#32)))

/-- The per-edge messages as a function of the arguments. -/
def msgs (x0 : (⟨S100000x10, .f32⟩ : BufTy).Contents (Elt Ideal)) (x1 : (⟨S2x6400000, .i32⟩ : BufTy).Contents (Elt Ideal))
    (x2 : (⟨S6400000x10, .f32⟩ : BufTy).Contents (Elt Ideal)) (x3 : (⟨S20x10, .f32⟩ : BufTy).Contents (Elt Ideal))
    (x4 : (⟨S10, .f32⟩ : BufTy).Contents (Elt Ideal)) (x5 : (⟨S10x10, .f32⟩ : BufTy).Contents (Elt Ideal)) :
    (⟨S6400000x10, .f32⟩ : BufTy).Contents (Elt Ideal) :=
  SplitDense.split (n := 6400000) (A := 10) (H := 10) (O := 10) x2 (neigh x0 x1)
    (extractStridedSlice S10x10 ![0, 0] x3 slices_S20x10_S10x10_0_0) (extractStridedSlice S10x10 ![10, 0] x3 slices_S20x10_S10x10_10_0)
    x4 x5 z

/-- The program's result as a function of the arguments. -/
def result (x0 : (⟨S100000x10, .f32⟩ : BufTy).Contents (Elt Ideal)) (x1 : (⟨S2x6400000, .i32⟩ : BufTy).Contents (Elt Ideal))
    (x2 : (⟨S6400000x10, .f32⟩ : BufTy).Contents (Elt Ideal)) (x3 : (⟨S20x10, .f32⟩ : BufTy).Contents (Elt Ideal))
    (x4 : (⟨S10, .f32⟩ : BufTy).Contents (Elt Ideal)) (x5 : (⟨S10x10, .f32⟩ : BufTy).Contents (Elt Ideal))
    (x6 : (⟨S20x20, .f32⟩ : BufTy).Contents (Elt Ideal)) (x7 : (⟨S20, .f32⟩ : BufTy).Contents (Elt Ideal))
    (x8 : (⟨S20x10, .f32⟩ : BufTy).Contents (Elt Ideal)) : (⟨S100000x10, .f32⟩ : BufTy).Contents (Elt Ideal) :=
  SplitDense.split (n := 100000) (A := 10) (H := 20) (O := 10) x0 (mean (dst x1) (msgs x0 x1 x2 x3 x4 x5))
    (extractStridedSlice S10x20 ![0, 0] x6 slices_S20x20_S10x20_0_0) (extractStridedSlice S10x20 ![10, 0] x6 slices_S20x20_S10x20_10_0)
    x7 x8 z

variable (m : (ℓ : Loc nD τ sig) → Buf (Elt Ideal) ℓ) (ρ : Dev nD → PrngReg)

/-! ## What the first region finds: the host operations before it, applied to the arguments -/

theorem found0_arg2 (c : Dev nD) : V1 m ρ c main_arg2 = m ((c : Thread nD τ).loc main_arg2) := by
  show StableHlo.after hostOps0 (W0 m ρ c) (Proc.devRef .tc main_arg2) = _
  simp only [hostOps0]; after_results
theorem found0_arg4 (c : Dev nD) : V1 m ρ c main_arg4 = m ((c : Thread nD τ).loc main_arg4) := by
  show StableHlo.after hostOps0 (W0 m ρ c) (Proc.devRef .tc main_arg4) = _
  simp only [hostOps0]; after_results
theorem found0_arg5 (c : Dev nD) : V1 m ρ c main_arg5 = m ((c : Thread nD τ).loc main_arg5) := by
  show StableHlo.after hostOps0 (W0 m ρ c) (Proc.devRef .tc main_arg5) = _
  simp only [hostOps0]; after_results
theorem found0_v10 (c : Dev nD) :
    V1 m ρ c main_v10 = neigh (m ((c : Thread nD τ).loc main_arg0)) (m ((c : Thread nD τ).loc main_arg1)) := by
  show StableHlo.after hostOps0 (W0 m ρ c) (Proc.devRef .tc main_v10) = _
  simp only [hostOps0]; after_results; rfl
theorem found0_v11 (c : Dev nD) :
    V1 m ρ c main_v11 = extractStridedSlice S10x10 ![0, 0] (m ((c : Thread nD τ).loc main_arg3)) slices_S20x10_S10x10_0_0 := by
  show StableHlo.after hostOps0 (W0 m ρ c) (Proc.devRef .tc main_v11) = _
  simp only [hostOps0]; after_results
theorem found0_v12 (c : Dev nD) :
    V1 m ρ c main_v12 = extractStridedSlice S10x10 ![10, 0] (m ((c : Thread nD τ).loc main_arg3)) slices_S20x10_S10x10_10_0 := by
  show StableHlo.after hostOps0 (W0 m ρ c) (Proc.devRef .tc main_v12) = _
  simp only [hostOps0]; after_results
theorem found0_v3 (c : Dev nD) : W1 m ρ c (Proc.devRef .tc main_v3) = dst (m ((c : Thread nD τ).loc main_arg1)) := by
  show StableHlo.after hostOps0 (W0 m ρ c) (Proc.devRef .tc main_v3) = _
  simp only [hostOps0]; after_results; rfl

/-- The per-edge layer's output array after the first region. -/
theorem after0_v13 (c : Dev nD) :
    W2 m ρ c (Proc.devRef .tc main_v13)
      = msgs (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have h : W2 m ρ c (Proc.devRef .tc main_v13) = (dat0 (V1 m ρ) c).arrAt 6 cfg0.N := W2_arr m ρ c 6
  rw [h, EdgeLayer.arr_eq (V1 m ρ) c]
  unfold EdgeLayer.G msgs
  rw [found0_arg2, found0_v10, found0_v11, found0_v12, found0_arg4, found0_arg5]

/-- The edge list's second row is not touched by the first region. -/
theorem after0_v3 (c : Dev nD) : W2 m ρ c (Proc.devRef .tc main_v3) = dst (m ((c : Thread nD τ).loc main_arg1)) :=
  (W2_of_ne m ρ c main_v3 (by decide)).trans (found0_v3 m ρ c)

/-! ## What the second region finds -/

/-- The second weight matrix is written by no host operation and is no window of the first region. -/
theorem after0_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    simp only [hostOps0]; after_results)

theorem found1_arg0 (c : Dev nD) : V5 m ρ c main_arg0 = m ((c : Thread nD τ).loc main_arg0) :=
  ((W6_arr m ρ c 0).trans (((dat1 (V5 m ρ) c).arrAt_in 0 rfl _).trans (A_eq1 (V5 m ρ) c 0))).symm.trans (W6_main_arg0 m ρ c)
theorem found1_arg7 (c : Dev nD) : V5 m ρ c main_arg7 = m ((c : Thread nD τ).loc main_arg7) :=
  ((W6_arr m ρ c 4).trans (((dat1 (V5 m ρ) c).arrAt_in 4 rfl _).trans (A_eq1 (V5 m ρ) c 4))).symm.trans (W6_main_arg7 m ρ c)
theorem found1_arg8 (c : Dev nD) : V5 m ρ c main_arg8 = m ((c : Thread nD τ).loc main_arg8) :=
  ((W6_arr m ρ c 5).trans (((dat1 (V5 m ρ) c).arrAt_in 5 rfl _).trans (A_eq1 (V5 m ρ) c 5))).symm.trans (W6_main_arg8 m ρ c)

theorem found1_v30 (c : Dev nD) :
    V5 m ρ c main_v30 = extractStridedSlice S10x20 ![0, 0] (m ((c : Thread nD τ).loc main_arg6)) slices_S20x20_S10x20_0_0 := by
  show StableHlo.after hostOps1_2 (W4 m ρ c) (Proc.devRef .tc main_v30) = _
  simp only [hostOps1_2]; after_results
  rw [after0_arg6]
theorem found1_v31 (c : Dev nD) :
    V5 m ρ c main_v31 = extractStridedSlice S10x20 ![10, 0] (m ((c : Thread nD τ).loc main_arg6)) slices_S20x20_S10x20_10_0 := by
  show StableHlo.after hostOps1_2 (W4 m ρ c) (Proc.devRef .tc main_v31) = _
  simp only [hostOps1_2]; after_results
  rw [after0_arg6]

/-! The host operations between the regions, one stretch at a time, from ANY contents `Wst` at the stretch's entry -/

/-- Which nodes receive a message, after the first stretch. -/
theorem stretch1_v23 (Wst : Valuation τ sig (Elt Ideal)) :
    StableHlo.after hostOps1 Wst (Proc.devRef .tc main_v23) = positive (Wst (Proc.devRef .tc main_v3)) := by
  simp only [hostOps1]; after_results; rfl
/-- The quotient, after the first stretch. -/
theorem stretch1_v28 (Wst : Valuation τ sig (Elt Ideal)) :
    StableHlo.after hostOps1 Wst (Proc.devRef .tc main_v28)
      = quotient (Wst (Proc.devRef .tc main_v3)) (Wst (Proc.devRef .tc main_v13)) := by
  simp only [hostOps1]; after_results; rfl
/-- The zero the selection falls back to, after the first stretch. -/
theorem stretch1_cst5 (Wst : Valuation τ sig (Elt Ideal)) :
    StableHlo.after hostOps1 Wst (Proc.devRef .tc main_cst_5) = constant (F := Ideal) S_ .f32 0x00000000#32 := by
  simp only [hostOps1]; after_results
/-- The selection's outlined function. -/
theorem stretch2_v29 (Wst : Valuation τ sig (Elt Ideal)) :
    StableHlo.after hostOps1_1 Wst (Proc.devRef .tc main_v29)
      = select (broadcastInDim S100000x10 ![0, 1] bcast_S100000x1_S100000x10_0_1 (Wst (Proc.devRef .tc main_v23)))
          (Wst (Proc.devRef .tc main_v28))
          (broadcastInDim S100000x10 ![] bcast_S_S100000x10 (id (Wst (Proc.devRef .tc main_cst_5)))) := by
  simp only [hostOps1_1]; after_results; rfl
/-- The slices of the second weight matrix leave the mean alone. -/
theorem stretch3_v29 (Wst : Valuation τ sig (Elt Ideal)) :
    StableHlo.after hostOps1_2 Wst (Proc.devRef .tc main_v29) = Wst (Proc.devRef .tc main_v29) := by
  simp only [hostOps1_2]; after_results

/-- The mean of the messages, as the second region finds it. -/
theorem found1_v29 (c : Dev nD) :
    V5 m ρ c main_v29
      = mean (dst (m ((c : Thread nD τ).loc main_arg1)))
          (msgs (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))) := by
  show StableHlo.after hostOps1_2 (StableHlo.after hostOps1_1 (StableHlo.after hostOps1 (W2 m ρ c))) (Proc.devRef .tc main_v29) = _
  rw [stretch3_v29, stretch2_v29, stretch1_v23, stretch1_v28, stretch1_cst5, after0_v13, after0_v3]
  rfl

/-! ## The result -/

/-- The result buffer's value at the end of the run. -/
theorem value (c : Dev nD) :
    W6 m ρ c (Proc.devRef .tc main_v32)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  have h : W6 m ρ c (Proc.devRef .tc main_v32) = (dat1 (V5 m ρ) c).arrAt 6 cfg1.N := W6_arr m ρ c 6
  rw [h, NodeLayer.arr_eq (V5 m ρ) c]
  unfold NodeLayer.G result
  rw [found1_arg0, found1_v29, found1_v30, found1_v31, found1_arg7, found1_arg8]

end Cert.KernelIdeal.Whole

end
-- ==== Proof.Bridge.lean ====
/-
  The reference's result is the kernel program's result, as functions of the nine arguments on the extended reals.

  The reference computes each of its two perceptron layers with the first layer as ONE product of the concatenation
  [a | b] of two inputs against a whole [20, H] weight matrix; the kernel program computes the same layer with two
  products, a against the matrix's rows 0–9 and b against its rows 10–19, and adds them. A sum over twenty positions is
  the sum over the first ten plus the sum over the last ten, so the two are the same array. Everything else — the
  gather of the neighbours' rows, the per-node sums, counts and division, the selection of 0 for a node without messages —
  is the same host operations in both programs, applied to equal arrays.
-/
import proofs.«115159_j74741020885174_1_alg».proof.Proof.RefRun
import proofs.«115159_j74741020885174_1_alg».proof.Proof.KernelValue

set_option maxRecDepth 16384

noncomputable section

namespace Cert.Bridge

open Cert.ReferenceIdeal Cert.ReferenceIdeal.Gen Idealize.ShloMosaic Idealize.ShloMosaic.TcCoe Idealize.SL.Sem

/-! ## The reference's four products contract the left operand's columns with the right operand's rows -/

theorem plainP1 : DenseVec.Plain dot_S6400000x20_S20x10_S6400000x10_1_0_0_1_n_n := by
  refine ⟨rfl, fun _ => rfl, rfl, rfl, fun j q => ?_, fun j q => ?_⟩
  · unfold DotDims.lhsIdx
    rw [dif_neg (show ¬(0 : Fin S6400000x20.rank) ∈ dot_S6400000x20_S20x10_S6400000x10_1_0_0_1_n_n.lhsBatch by decide),
      dif_pos (show (0 : Fin S6400000x20.rank) ∈ dot_S6400000x20_S20x10_S6400000x10_1_0_0_1_n_n.lhsNonContracting by decide)]
    rfl
  · unfold DotDims.rhsIdx
    rw [dif_neg (show ¬(1 : Fin S20x10.rank) ∈ dot_S6400000x20_S20x10_S6400000x10_1_0_0_1_n_n.rhsBatch by decide),
      dif_pos (show (1 : Fin S20x10.rank) ∈ dot_S6400000x20_S20x10_S6400000x10_1_0_0_1_n_n.rhsNonContracting by decide)]
    rfl

theorem plainP2 : DenseVec.Plain dot_S6400000x10_S10x10_S6400000x10_1_0_0_1_n_n := by
  refine ⟨rfl, fun _ => rfl, rfl, rfl, fun j q => ?_, fun j q => ?_⟩
  · unfold DotDims.lhsIdx
    rw [dif_neg (show ¬(0 : Fin S6400000x10.rank) ∈ dot_S6400000x10_S10x10_S6400000x10_1_0_0_1_n_n.lhsBatch by decide),
      dif_pos (show (0 : Fin S6400000x10.rank) ∈ dot_S6400000x10_S10x10_S6400000x10_1_0_0_1_n_n.lhsNonContracting by decide)]
    rfl
  · unfold DotDims.rhsIdx
    rw [dif_neg (show ¬(1 : Fin S10x10.rank) ∈ dot_S6400000x10_S10x10_S6400000x10_1_0_0_1_n_n.rhsBatch by decide),
      dif_pos (show (1 : Fin S10x10.rank) ∈ dot_S6400000x10_S10x10_S6400000x10_1_0_0_1_n_n.rhsNonContracting by decide)]
    rfl

theorem plainU1 : DenseVec.Plain dot_S100000x20_S20x20_S100000x20_1_0_0_1_n_n := by
  refine ⟨rfl, fun _ => rfl, rfl, rfl, fun j q => ?_, fun j q => ?_⟩
  · unfold DotDims.lhsIdx
    rw [dif_neg (show ¬(0 : Fin S100000x20.rank) ∈ dot_S100000x20_S20x20_S100000x20_1_0_0_1_n_n.lhsBatch by decide),
      dif_pos (show (0 : Fin S100000x20.rank) ∈ dot_S100000x20_S20x20_S100000x20_1_0_0_1_n_n.lhsNonContracting by decide)]
    rfl
  · unfold DotDims.rhsIdx
    rw [dif_neg (show ¬(1 : Fin S20x20.rank) ∈ dot_S100000x20_S20x20_S100000x20_1_0_0_1_n_n.rhsBatch by decide),
      dif_pos (show (1 : Fin S20x20.rank) ∈ dot_S100000x20_S20x20_S100000x20_1_0_0_1_n_n.rhsNonContracting by decide)]
    rfl

theorem plainU2 : DenseVec.Plain dot_S100000x20_S20x10_S100000x10_1_0_0_1_n_n := by
  refine ⟨rfl, fun _ => rfl, rfl, rfl, fun j q => ?_, fun j q => ?_⟩
  · unfold DotDims.lhsIdx
    rw [dif_neg (show ¬(0 : Fin S100000x20.rank) ∈ dot_S100000x20_S20x10_S100000x10_1_0_0_1_n_n.lhsBatch by decide),
      dif_pos (show (0 : Fin S100000x20.rank) ∈ dot_S100000x20_S20x10_S100000x10_1_0_0_1_n_n.lhsNonContracting by decide)]
    rfl
  · unfold DotDims.rhsIdx
    rw [dif_neg (show ¬(1 : Fin S20x10.rank) ∈ dot_S100000x20_S20x10_S100000x10_1_0_0_1_n_n.rhsBatch by decide),
      dif_pos (show (1 : Fin S20x10.rank) ∈ dot_S100000x20_S20x10_S100000x10_1_0_0_1_n_n.rhsNonContracting by decide)]
    rfl

/-- The reference's composed term of its arguments is the kernel program's result function of them. -/
theorem ref_eq (x0 : FVec Ideal S100000x10 .f32) (x1 : (⟨S2x6400000, .i32⟩ : BufTy).Contents (Elt Ideal))
    (x2 : FVec Ideal S6400000x10 .f32) (x3 : FVec Ideal S20x10 .f32)
    (x4 : FVec Ideal S10 .f32) (x5 : FVec Ideal S10x10 .f32)
    (x6 : FVec Ideal S20x20 .f32) (x7 : FVec Ideal S20 .f32)
    (x8 : FVec Ideal S20x10 .f32) :
    (Host.dotGeneral dot_S100000x20_S20x10_S100000x10_1_0_0_1_n_n none (maximumf (addf (Host.dotGeneral dot_S100000x20_S20x20_S100000x20_1_0_0_1_n_n none (concatenate S100000x20 1 [⟨S100000x10, x0⟩, ⟨S100000x10, (select (broadcastInDim S100000x10 ![0, 1] bcast_S100000x1_S100000x10_0_1 (cmpf (F := Ideal) .ogt (broadcastInDim S100000x1 ![0] bcast_S100000_S100000x1_0 (Host.scatterAdd scatter_S100000_S6400000x1_S6400000_n_0_0_1 (broadcastInDim S100000 ![] bcast_S_S100000 (constant S_ .f32 0x00000000#32)) (broadcastInDim S6400000x1 ![0] bcast_S6400000_S6400000x1_0 (shapeCast _ (extractStridedSlice S1x6400000 ![1, 0] x1 slices_S2x6400000_S1x6400000_1_0) shapeCasts_S1x6400000_S6400000)) (broadcastInDim S6400000 ![] bcast_S_S6400000 (constant S_ .f32 0x3F800000#32)))) (broadcastInDim S100000x1 ![] bcast_S_S100000x1 (constant S_ .f32 0x00000000#32)))) (Host.divf (Host.scatterAdd scatter_S100000x10_S6400000x1_S6400000x10_1_0_0_1 (broadcastInDim S100000x10 ![] bcast_S_S100000x10 (constant S_ .f32 0x00000000#32)) (broadcastInDim S6400000x1 ![0] bcast_S6400000_S6400000x1_0 (shapeCast _ (extractStridedSlice S1x6400000 ![1, 0] x1 slices_S2x6400000_S1x6400000_1_0) shapeCasts_S1x6400000_S6400000)) (Host.dotGeneral dot_S6400000x10_S10x10_S6400000x10_1_0_0_1_n_n none (maximumf (addf (Host.dotGeneral dot_S6400000x20_S20x10_S6400000x10_1_0_0_1_n_n none (concatenate S6400000x20 1 [⟨S6400000x10, x2⟩, ⟨S6400000x10, (Host.gather gather_S100000x10_S6400000x1_S6400000x10_1_0_n_n_0_1_110 x0 (broadcastInDim S6400000x1 ![0] bcast_S6400000_S6400000x1_0 (select (cmpi .slt (shapeCast _ (extractStridedSlice S1x6400000 ![0, 0] x1 slices_S2x6400000_S1x6400000_0_0) shapeCasts_S1x6400000_S6400000) (broadcastInDim S6400000 ![] bcast_S_S6400000 (constantI S_ 32 0#32))) (addi (shapeCast _ (extractStridedSlice S1x6400000 ![0, 0] x1 slices_S2x6400000_S1x6400000_0_0) shapeCasts_S1x6400000_S6400000) (broadcastInDim S6400000 ![] bcast_S_S6400000 (constantI S_ 32 100000#32))) (shapeCast _ (extractStridedSlice S1x6400000 ![0, 0] x1 slices_S2x6400000_S1x6400000_0_0) shapeCasts_S1x6400000_S6400000))))⟩] concatenates_S6400000x10_S6400000x10_S6400000x20_d1) x3) (broadcastInDim S6400000x10 ![0, 1] bcast_S1x10_S6400000x10_0_1 (broadcastInDim S1x10 ![1] bcast_S10_S1x10_1 x4))) (broadcastInDim S6400000x10 ![] bcast_S_S6400000x10 (constant S_ .f32 0x00000000#32))) x5)) (broadcastInDim S100000x10 ![0, 1] bcast_S100000x1_S100000x10_0_1 (maximumf (broadcastInDim S100000x1 ![0] bcast_S100000_S100000x1_0 (Host.scatterAdd scatter_S100000_S6400000x1_S6400000_n_0_0_1 (broadcastInDim S100000 ![] bcast_S_S100000 (constant S_ .f32 0x00000000#32)) (broadcastInDim S6400000x1 ![0] bcast_S6400000_S6400000x1_0 (shapeCast _ (extractStridedSlice S1x6400000 ![1, 0] x1 slices_S2x6400000_S1x6400000_1_0) shapeCasts_S1x6400000_S6400000)) (broadcastInDim S6400000 ![] bcast_S_S6400000 (constant S_ .f32 0x3F800000#32)))) (broadcastInDim S100000x1 ![] bcast_S_S100000x1 (constant S_ .f32 0x3F800000#32))))) (broadcastInDim S100000x10 ![] bcast_S_S100000x10 (id (constant S_ .f32 0x00000000#32))))⟩] concatenates_S100000x10_S100000x10_S100000x20_d1) x6) (broadcastInDim S100000x20 ![0, 1] bcast_S1x20_S100000x20_0_1 (broadcastInDim S1x20 ![1] bcast_S20_S1x20_1 x7))) (broadcastInDim S100000x20 ![] bcast_S_S100000x20 (constant S_ .f32 0x00000000#32))) x8 : FVec Ideal S100000x10 .f32)
      = Cert.KernelIdeal.Whole.result x0 x1 x2 x3 x4 x5 x6 x7 x8 := by
  unfold Cert.KernelIdeal.Whole.result
  -- the per-node layer: one product of the concatenation against the whole matrix is the two products of the halves
  refine (SplitDense.host_eq (n := 100000) (A := 10) (K := 20) (H := 20) (O := 10) rfl plainU1 plainU2 x0 _ x6 x7 x8 _
    Cert.KernelIdeal.Gen.slices_S20x20_S10x20_0_0 Cert.KernelIdeal.Gen.slices_S20x20_S10x20_10_0 _ _ _).trans ?_
  refine congrArg (fun a => SplitDense.split (n := 100000) (A := 10) (H := 20) (O := 10) x0 a _ _ x7 x8 _) ?_
  -- the per-edge layer, likewise
  rw [SplitDense.host_eq (n := 6400000) (A := 10) (K := 20) (H := 10) (O := 10) rfl plainP1 plainP2 x2 _ x3 x4 x5 _
    Cert.KernelIdeal.Gen.slices_S20x10_S10x10_0_0 Cert.KernelIdeal.Gen.slices_S20x10_S10x10_10_0 _ _ _]
  -- the shared host operations, applied to the same arrays
  rfl

end Cert.Bridge

end
-- ==== Proof.lean ====
/-
  Two layers of message passing on a graph: a kernel program against its plain reference.

  For node features x : [100000, 10], an edge list e : [2, 6400000] and edge features f : [6400000, 10], both programs
  compute, for every edge, a message — a two-layer perceptron of the edge's features and the features of the node the
  edge list's first row names —, average the messages over the node the second row names (0 for a node that receives
  none), and apply a second two-layer perceptron to each node's features beside its average. The reference writes each
  perceptron's first layer as one product of the concatenated inputs against a [20, H] weight matrix; the kernel program
  writes it as the sum of two products against the matrix's upper and lower ten rows, inside two row-blocked kernel
  regions, and rounds the products' operands to a narrower format on the way in. On the extended reals the rounding is
  the identity and a sum over twenty positions is the sum over the first ten plus the sum over the last ten — this needs
  only that + is associative and commutative, so nothing is asked of the inputs' finiteness —, and the gather, the
  per-node sums, the division and the selection are the same host operations in both programs. So the two results are
  equal entry by entry.

  The three programs' runs (termination without a fault, the arguments unchanged) are the generated frames of the two
  kernel programs and the reference's run read back; the idealized kernel program differs from the printed one by no
  rewrite, so nothing is owed for that step.
-/
import proofs.«115159_j74741020885174_1_alg».proof.Defs
import proofs.«115159_j74741020885174_1_alg».proof.Proof.Gen.Kernel
import proofs.«115159_j74741020885174_1_alg».proof.Proof.Gen.Kernel.Skeleton
import proofs.«115159_j74741020885174_1_alg».proof.Proof.Gen.Kernel.Launch
import proofs.«115159_j74741020885174_1_alg».proof.Proof.Gen.Kernel.Points
import proofs.«115159_j74741020885174_1_alg».proof.Proof.Gen.Kernel.Frame
import proofs.«115159_j74741020885174_1_alg».proof.Proof.Gen.KernelIdeal
import proofs.«115159_j74741020885174_1_alg».proof.Proof.Gen.KernelIdeal.Skeleton
import proofs.«115159_j74741020885174_1_alg».proof.Proof.Gen.KernelIdeal.Launch
import proofs.«115159_j74741020885174_1_alg».proof.Proof.Gen.KernelIdeal.Points
import proofs.«115159_j74741020885174_1_alg».proof.Proof.Gen.KernelIdeal.Frame
import proofs.«115159_j74741020885174_1_alg».proof.Proof.Gen.ReferenceIdeal
import proofs.«115159_j74741020885174_1_alg».proof.Proof.Gen.Pre_finite_inputs
import proofs.«115159_j74741020885174_1_alg».proof.Proof.RefRun
import proofs.«115159_j74741020885174_1_alg».proof.Proof.KernelRun
import proofs.«115159_j74741020885174_1_alg».proof.Proof.KernelValue
import proofs.«115159_j74741020885174_1_alg».proof.Proof.Bridge
import Idealize.ShloMosaic.Adequacy
import Idealize.ShloMosaic.Init

noncomputable section

namespace Cert.Proof

open Idealize.ShloMosaic Idealize.ShloMosaic.TcCoe Idealize.SL.Sem

/-- The printed kernel program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as launched: its run read back, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealized kernel program is the printed one read on the extended reals: no operation was rewritten. -/
theorem preserves : Cert.preserves_Kernel_KernelIdeal := trivial

/-- From memories that agree on the nine arguments both programs end with the same result array: the kernel program's
    result buffer holds its segments' fold, which is `Whole.result` of the arguments; the reference's holds its
    operations' composed term, which is the same function of them. -/
theorem algebraic : Cert.algebraic_KernelIdeal_ReferenceIdeal := by
  intro m ρ m' ρ' _ hagree
  refine ⟨fun c => Cert.KernelIdeal.Gen.W6 m ρ c (Proc.devRef .tc Cert.KernelIdeal.main_v32),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8⟩ := hagree c
  show _ = Cert.KernelIdeal.Gen.W6 m ρ c (Proc.devRef .tc Cert.KernelIdeal.main_v32)
  rw [a0, a1, a2, a3, a4, a5, a6, a7, a8, Cert.KernelIdeal.Whole.value m ρ c]
  exact Cert.Bridge.ref_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
